-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S4x2048x2048 : Shape := ⟨3, ![4, 2048, 2048]⟩
abbrev S4x2048 : Shape := ⟨2, ![4, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S4x2048x2048 : S_.BroadcastsInDim S4x2048x2048 (![] : Fin 0 → Fin S4x2048x2048.rank)
  reducesTo_S4x2048x2048_S_d0_1_2 : S4x2048x2048.ReducesTo [0, 1, 2] S_
  bcast_S_S4x2048 : S_.BroadcastsInDim S4x2048 (![] : Fin 0 → Fin S4x2048.rank)
  reducesTo_S4x2048_S_d0_1 : S4x2048.ReducesTo [0, 1] S_

variable [Facts]

def fn_part1 {F : FTy → Type} [FloatOps F] (main_arg4 : FVec F S4x2048 .f32) (main_v13 : IVec S_ 1) (main_v16 : IVec S4x2048 1) : IVec S_ 1 :=
  let main_c_5 : IVec S_ 1 := constantI S_ 1 1#1
  let main_v17 : IVec S_ 1 := (fun x v => Host.reduce IntOp.andi x v reducesTo_S4x2048_S_d0_1 h_S_) main_v16 main_c_5
  let main_v18 : IVec S_ 1 := andi main_v13 main_v17
  let main_v19 : FVec F S4x2048 .f32 := Host.absf main_arg4
  let main_cst_6 : FVec F S_ .f32 := constant S_ .f32 0x7F800000#32
  let main_v20 : FVec F S4x2048 .f32 := broadcastInDim S4x2048 ![] bcast_S_S4x2048 main_cst_6
  let main_v21 : IVec S4x2048 1 := cmpf .olt main_v19 main_v20
  let main_c_7 : IVec S_ 1 := constantI S_ 1 1#1
  let main_v22 : IVec S_ 1 := (fun x v => Host.reduce IntOp.andi x v reducesTo_S4x2048_S_d0_1 h_S_) main_v21 main_c_7
  let main_v23 : IVec S_ 1 := andi main_v18 main_v22
  main_v23

def fn {F : FTy → Type} [FloatOps F] (main_arg0 : FVec F S8x2048x2048 .f32) (main_arg1 : FVec F S4x2048x2048 .f32) (main_arg2 : FVec F S4x2048 .f32) (main_arg3 : FVec F S4x2048 .f32) (main_arg4 : FVec F S4x2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S4x2048x2048 .f32 := Host.absf main_arg1
  let main_cst_0 : FVec F S_ .f32 := constant S_ .f32 0x7F800000#32
  let main_v5 : FVec F S4x2048x2048 .f32 := broadcastInDim S4x2048x2048 ![] bcast_S_S4x2048x2048 main_cst_0
  let main_v6 : IVec S4x2048x2048 1 := cmpf .olt main_v4 main_v5
  let main_c_1 : IVec S_ 1 := constantI S_ 1 1#1
  let main_v7 : IVec S_ 1 := (fun x v => Host.reduce IntOp.andi x v reducesTo_S4x2048x2048_S_d0_1_2 h_S_) main_v6 main_c_1
  let main_v8 : IVec S_ 1 := andi main_v3 main_v7
  let main_v9 : FVec F S4x2048 .f32 := Host.absf main_arg2
  let main_cst_2 : FVec F S_ .f32 := constant S_ .f32 0x7F800000#32
  let main_v10 : FVec F S4x2048 .f32 := broadcastInDim S4x2048 ![] bcast_S_S4x2048 main_cst_2
  let main_v11 : IVec S4x2048 1 := cmpf .olt main_v9 main_v10
  let main_c_3 : IVec S_ 1 := constantI S_ 1 1#1
  let main_v12 : IVec S_ 1 := (fun x v => Host.reduce IntOp.andi x v reducesTo_S4x2048_S_d0_1 h_S_) main_v11 main_c_3
  let main_v13 : IVec S_ 1 := andi main_v8 main_v12
  let main_v14 : FVec F S4x2048 .f32 := Host.absf main_arg3
  let main_cst_4 : FVec F S_ .f32 := constant S_ .f32 0x7F800000#32
  let main_v15 : FVec F S4x2048 .f32 := broadcastInDim S4x2048 ![] bcast_S_S4x2048 main_cst_4
  let main_v16 : IVec S4x2048 1 := cmpf .olt main_v14 main_v15
  fn_part1 (F := F) main_arg4 main_v13 main_v16
-- ==== Kernel.lean ====
abbrev S8x2048x2048 : Shape := ⟨3, ![8, 2048, 2048]⟩
abbrev S4x2048x2048 : Shape := ⟨3, ![4, 2048, 2048]⟩
abbrev S4x2048 : Shape := ⟨2, ![4, 2048]⟩
abbrev S16384x2048 : Shape := ⟨2, ![16384, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S256x2048 : Shape := ⟨2, ![256, 2048]⟩
abbrev S256 : Shape := ⟨1, ![256]⟩
abbrev S256x1 : Shape := ⟨2, ![256, 1]⟩

abbrev nBuf : Space → Nat
  | .hbm => 55
  | .vmem => 24
  | .smem => 0
  | _ => 0

abbrev bufTy : (tb : Table) → Fin (tcTables nBuf tb) → BufTy
  | .hbm, ⟨0, _⟩ => ⟨S8x2048x2048, .f32⟩
  | .hbm, ⟨1, _⟩ => ⟨S4x2048x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S16384x2048, .f32⟩
  | .hbm, ⟨6, _⟩ => ⟨S4x2048x2048, .f32⟩
  | .hbm, ⟨7, _⟩ => ⟨S4x2048x2048, .bf16⟩
  | .hbm, ⟨8, _⟩ => ⟨S1x2048x2048, .bf16⟩
  | .hbm, ⟨9, _⟩ => ⟨S2048x2048, .bf16⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S1x2048x2048, .bf16⟩
  | .hbm, ⟨20, _⟩ => ⟨S2048x2048, .bf16⟩
  | .hbm, ⟨21, _⟩ => ⟨S1x2048, .f32⟩
  | .hbm, ⟨22, _⟩ => ⟨S2048, .f32⟩
  | .hbm, ⟨23, _⟩ => ⟨S1x2048, .f32⟩
  | .hbm, ⟨24, _⟩ => ⟨S1x2048, .f32⟩
  | .hbm, ⟨25, _⟩ => ⟨S2048, .f32⟩
  | .hbm, ⟨26, _⟩ => ⟨S1x2048, .f32⟩
  | .hbm, ⟨27, _⟩ => ⟨S1x2048, .f32⟩
  | .hbm, ⟨28, _⟩ => ⟨S2048, .f32⟩
  | .hbm, ⟨29, _⟩ => ⟨S1x2048, .f32⟩
  | .hbm, ⟨30, _⟩ => ⟨S16384x2048, .f32⟩
  | .hbm, ⟨31, _⟩ => ⟨S1x2048x2048, .bf16⟩
  | .hbm, ⟨32, _⟩ => ⟨S2048x2048, .bf16⟩
  | .hbm, ⟨33, _⟩ => ⟨S1x2048, .f32⟩
  | .hbm, ⟨34, _⟩ => ⟨S2048, .f32⟩
  | .hbm, ⟨35, _⟩ => ⟨S1x2048, .f32⟩
  | .hbm, ⟨36, _⟩ => ⟨S1x2048, .f32⟩
  | .hbm, ⟨37, _⟩ => ⟨S2048, .f32⟩
  | .hbm, ⟨38, _⟩ => ⟨S1x2048, .f32⟩
  | .hbm, ⟨39, _⟩ => ⟨S1x2048, .f32⟩
  | .hbm, ⟨40, _⟩ => ⟨S2048, .f32⟩
  | .hbm, ⟨41, _⟩ => ⟨S1x2048, .f32⟩
  | .hbm, ⟨42, _⟩ => ⟨S1x2048x2048, .bf16⟩
  | .hbm, ⟨43, _⟩ => ⟨S2048x2048, .bf16⟩
  | .hbm, ⟨44, _⟩ => ⟨S1x2048, .f32⟩
  | .hbm, ⟨45, _⟩ => ⟨S2048, .f32⟩
  | .hbm, ⟨46, _⟩ => ⟨S1x2048, .f32⟩
  | .hbm, ⟨47, _⟩ => ⟨S1x2048, .f32⟩
  | .hbm, ⟨48, _⟩ => ⟨S2048, .f32⟩
  | .hbm, ⟨49, _⟩ => ⟨S1x2048, .f32⟩
  | .hbm, ⟨50, _⟩ => ⟨S1x2048, .f32⟩
  | .hbm, ⟨51, _⟩ => ⟨S2048, .f32⟩
  | .hbm, ⟨52, _⟩ => ⟨S1x2048, .f32⟩
  | .hbm, ⟨53, _⟩ => ⟨S16384x2048, .f32⟩
  | .hbm, ⟨54, _⟩ => ⟨S8x2048x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S2048x2048, .bf16⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S2048x2048, .bf16⟩
  | .local _ .vmem, ⟨19, _⟩ => ⟨S1x2048, .f32⟩
  | .local _ .vmem, ⟨20, _⟩ => ⟨S1x2048, .f32⟩
  | .local _ .vmem, ⟨21, _⟩ => ⟨S1x2048, .f32⟩
  | .local _ .vmem, ⟨22, _⟩ => ⟨S256x2048, .f32⟩
  | .local _ .vmem, ⟨23, _⟩ => ⟨S256x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_v13 : Ref sig .tc := ⟨.hbm, 18, rfl⟩
abbrev main_call0_v14 : Ref sig .tc := ⟨.hbm, 19, rfl⟩
abbrev main_call0_v15 : Ref sig .tc := ⟨.hbm, 20, rfl⟩
abbrev main_call0_v16 : Ref sig .tc := ⟨.hbm, 21, rfl⟩
abbrev main_call0_v17 : Ref sig .tc := ⟨.hbm, 22, rfl⟩
abbrev main_call0_v18 : Ref sig .tc := ⟨.hbm, 23, rfl⟩
abbrev main_call0_v19 : Ref sig .tc := ⟨.hbm, 24, rfl⟩
abbrev main_call0_v20 : Ref sig .tc := ⟨.hbm, 25, rfl⟩
abbrev main_call0_v21 : Ref sig .tc := ⟨.hbm, 26, rfl⟩
abbrev main_call0_v22 : Ref sig .tc := ⟨.hbm, 27, rfl⟩
abbrev main_call0_v23 : Ref sig .tc := ⟨.hbm, 28, rfl⟩
abbrev main_call0_v24 : Ref sig .tc := ⟨.hbm, 29, rfl⟩
abbrev main_call0_v25 : Ref sig .tc := ⟨.hbm, 30, rfl⟩
abbrev main_call0_v26 : Ref sig .tc := ⟨.hbm, 31, rfl⟩
abbrev main_call0_v27 : Ref sig .tc := ⟨.hbm, 32, rfl⟩
abbrev main_call0_v28 : Ref sig .tc := ⟨.hbm, 33, rfl⟩
abbrev main_call0_v29 : Ref sig .tc := ⟨.hbm, 34, rfl⟩
abbrev main_call0_v30 : Ref sig .tc := ⟨.hbm, 35, rfl⟩
abbrev main_call0_v31 : Ref sig .tc := ⟨.hbm, 36, rfl⟩
abbrev main_call0_v32 : Ref sig .tc := ⟨.hbm, 37, rfl⟩
abbrev main_call0_v33 : Ref sig .tc := ⟨.hbm, 38, rfl⟩
abbrev main_call0_v34 : Ref sig .tc := ⟨.hbm, 39, rfl⟩
abbrev main_call0_v35 : Ref sig .tc := ⟨.hbm, 40, rfl⟩
abbrev main_call0_v36 : Ref sig .tc := ⟨.hbm, 41, rfl⟩
abbrev main_call0_v37 : Ref sig .tc := ⟨.hbm, 42, rfl⟩
abbrev main_call0_v38 : Ref sig .tc := ⟨.hbm, 43, rfl⟩
abbrev main_call0_v39 : Ref sig .tc := ⟨.hbm, 44, rfl⟩
abbrev main_call0_v40 : Ref sig .tc := ⟨.hbm, 45, rfl⟩
abbrev main_call0_v41 : Ref sig .tc := ⟨.hbm, 46, rfl⟩
abbrev main_call0_v42 : Ref sig .tc := ⟨.hbm, 47, rfl⟩
abbrev main_call0_v43 : Ref sig .tc := ⟨.hbm, 48, rfl⟩
abbrev main_call0_v44 : Ref sig .tc := ⟨.hbm, 49, rfl⟩
abbrev main_call0_v45 : Ref sig .tc := ⟨.hbm, 50, rfl⟩
abbrev main_call0_v46 : Ref sig .tc := ⟨.hbm, 51, rfl⟩
abbrev main_call0_v47 : Ref sig .tc := ⟨.hbm, 52, rfl⟩
abbrev main_call0_v48 : Ref sig .tc := ⟨.hbm, 53, rfl⟩
abbrev main_v0 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x2048 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x2048 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S256x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  shapeCasts_S8x2048x2048_S16384x2048 : S8x2048x2048.ShapeCasts S16384x2048
  transposes_S4x2048x2048_S4x2048x2048_0_2_1 : S4x2048x2048.Transposes [0, 2, 1] S4x2048x2048
  bitsLt_bf16_f32 : FTy.bits .bf16 < FTy.bits .f32
  slices_S4x2048x2048_S1x2048x2048_0_0_0 : S4x2048x2048.Slices ![0, 0, 0] S1x2048x2048
  shapeCasts_S1x2048x2048_S2048x2048 : S1x2048x2048.ShapeCasts S2048x2048
  slices_S4x2048_S1x2048_0_0 : S4x2048.Slices ![0, 0] S1x2048
  shapeCasts_S1x2048_S2048 : S1x2048.ShapeCasts S2048
  shapeCasts_S2048_S1x2048 : S2048.ShapeCasts S1x2048
  slices_S4x2048x2048_S1x2048x2048_1_0_0 : S4x2048x2048.Slices ![1, 0, 0] S1x2048x2048
  slices_S4x2048_S1x2048_1_0 : S4x2048.Slices ![1, 0] S1x2048
  slices_S4x2048x2048_S1x2048x2048_2_0_0 : S4x2048x2048.Slices ![2, 0, 0] S1x2048x2048
  slices_S4x2048_S1x2048_2_0 : S4x2048.Slices ![2, 0] S1x2048
  slices_S4x2048x2048_S1x2048x2048_3_0_0 : S4x2048x2048.Slices ![3, 0, 0] S1x2048x2048
  slices_S4x2048_S1x2048_3_0 : S4x2048.Slices ![3, 0] S1x2048
  shapeCasts_S16384x2048_S8x2048x2048 : S16384x2048.ShapeCasts S8x2048x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  broadcasts_S256x1_S256x2048 : S256x1.Broadcasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x2048.size a ≤ S2048x2048.size a
  hwx0_5 : ∀ i : grid0.Coords, EltTy.bits .bf16 = 32 ∨ (Rect.block (s := S2048x2048) S2048x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x2048.size a ≤ S16384x2048.size a
  hwx0_9 : ∀ i : grid0.Coords, EltTy.bits .f32 = 32 ∨ (Rect.block (s := S16384x2048) S256x2048.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S16384x2048.size a
  hwx1_0 : ∀ i : grid1.Coords, EltTy.bits .f32 = 32 ∨ (Rect.block (s := S16384x2048) S256x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x2048.size a
  hwx1_4 : ∀ i : grid1.Coords, EltTy.bits .f32 = 32 ∨ (Rect.block (s := S1x2048) S1x2048.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048x2048.size a ≤ S2048x2048.size a
  hwx1_5 : ∀ i : grid1.Coords, EltTy.bits .bf16 = 32 ∨ (Rect.block (s := S2048x2048) S2048x2048.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2048.size a ≤ S1x2048.size a
  hwx1_6 : ∀ i : grid1.Coords, EltTy.bits .f32 = 32 ∨ (Rect.block (s := S1x2048) S1x2048.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x2048.size a ≤ S1x2048.size a
  hwx1_7 : ∀ i : grid1.Coords, EltTy.bits .f32 = 32 ∨ (Rect.block (s := S1x2048) S1x2048.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x2048.size a ≤ S1x2048.size a
  hwx1_8 : ∀ i : grid1.Coords, EltTy.bits .f32 = 32 ∨ (Rect.block (s := S1x2048) S1x2048.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S256x2048.size a ≤ S16384x2048.size a
  hwx1_9 : ∀ i : grid1.Coords, EltTy.bits .f32 = 32 ∨ (Rect.block (s := S16384x2048) S256x2048.size (cc1_transform_9 i) (hinb1_9 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_call0_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v4) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v7) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v10) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v13) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v15) S2048x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v18) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v21) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v24) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v25) S256x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_call0_v25) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v27) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v30) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v33) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v36) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v38) S2048x2048.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v41) S1x2048.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v44) S1x2048.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_call0_v47) S1x2048.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_call0_v48) S256x2048.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S8x2048x2048 : Shape := ⟨3, ![8, 2048, 2048]⟩
abbrev S4x2048x2048 : Shape := ⟨3, ![4, 2048, 2048]⟩
abbrev S4x2048 : Shape := ⟨2, ![4, 2048]⟩
abbrev S1x2048 : Shape := ⟨2, ![1, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S1x2048x2048 : Shape := ⟨3, ![1, 2048, 2048]⟩
abbrev S2048x2048 : Shape := ⟨2, ![2048, 2048]⟩

abbrev nBuf : Space → Nat
  | .hbm => 237
  | .vmem => 0
  | .smem => 0
  | _ => 0

abbrev hbmTy0_0 (i : Nat) : BufTy := match i % 128 with
  | 0 => ⟨S8x2048x2048, .f32⟩
  | 1 => ⟨S4x2048x2048, .f32⟩
  | 2 => ⟨S4x2048, .f32⟩
  | 3 => ⟨S4x2048, .f32⟩
  | 4 => ⟨S4x2048, .f32⟩
  | 5 => ⟨S1x2048, .f32⟩
  | 6 => ⟨S2048, .f32⟩
  | 7 => ⟨S1x2048, .f32⟩
  | 8 => ⟨S2048, .f32⟩
  | 9 => ⟨S_, .f32⟩
  | 10 => ⟨S8x2048, .f32⟩
  | 11 => ⟨S8x2048x1, .f32⟩
  | 12 => ⟨S_, .f32⟩
  | 13 => ⟨S8x2048x1, .f32⟩
  | 14 => ⟨S8x2048x1, .f32⟩
  | 15 => ⟨S8x2048x2048, .f32⟩
  | 16 => ⟨S8x2048x2048, .f32⟩
  | 17 => ⟨S8x2048x2048, .f32⟩
  | 18 => ⟨S_, .f32⟩
  | 19 => ⟨S8x2048, .f32⟩
  | 20 => ⟨S8x2048x1, .f32⟩
  | 21 => ⟨S_, .f32⟩
  | 22 => ⟨S8x2048x1, .f32⟩
  | 23 => ⟨S8x2048x1, .f32⟩
  | 24 => ⟨S8x2048x2048, .f32⟩
  | 25 => ⟨S8x2048x2048, .f32⟩
  | 26 => ⟨S_, .f32⟩
  | 27 => ⟨S8x2048x1, .f32⟩
  | 28 => ⟨S8x2048x1, .f32⟩
  | 29 => ⟨S8x2048x1, .f32⟩
  | 30 => ⟨S8x2048x2048, .f32⟩
  | 31 => ⟨S8x2048x2048, .f32⟩
  | 32 => ⟨S1x1x2048, .f32⟩
  | 33 => ⟨S8x2048x2048, .f32⟩
  | 34 => ⟨S8x2048x2048, .f32⟩
  | 35 => ⟨S1x1x2048, .f32⟩
  | 36 => ⟨S8x2048x2048, .f32⟩
  | 37 => ⟨S8x2048x2048, .f32⟩
  | 38 => ⟨S1x2048x2048, .f32⟩
  | 39 => ⟨S2048x2048, .f32⟩
  | 40 => ⟨S8x2048x2048, .f32⟩
  | 41 => ⟨S1x2048, .f32⟩
  | 42 => ⟨S2048, .f32⟩
  | 43 => ⟨S1x1x2048, .f32⟩
  | 44 => ⟨S8x2048x2048, .f32⟩
  | 45 => ⟨S8x2048x2048, .f32⟩
  | 46 => ⟨S_, .f32⟩
  | 47 => ⟨S8x2048x2048, .f32⟩
  | 48 => ⟨S8x2048x2048, .f32⟩
  | 49 => ⟨S_, .f32⟩
  | 50 => ⟨S8x2048x2048, .f32⟩
  | 51 => ⟨S8x2048x2048, .f32⟩
  | 52 => ⟨S8x2048x2048, .f32⟩
  | 53 => ⟨S8x2048x2048, .f32⟩
  | 54 => ⟨S8x2048x2048, .f32⟩
  | 55 => ⟨S_, .f32⟩
  | 56 => ⟨S8x2048x2048, .f32⟩
  | 57 => ⟨S8x2048x2048, .f32⟩
  | 58 => ⟨S8x2048x2048, .f32⟩
  | 59 => ⟨S_, .f32⟩
  | 60 => ⟨S8x2048x2048, .f32⟩
  | 61 => ⟨S8x2048x2048, .f32⟩
  | 62 => ⟨S8x2048x2048, .f32⟩
  | 63 => ⟨S1x2048, .f32⟩
  | 64 => ⟨S2048, .f32⟩
  | 65 => ⟨S1x2048, .f32⟩
  | 66 => ⟨S2048, .f32⟩
  | 67 => ⟨S_, .f32⟩
  | 68 => ⟨S8x2048, .f32⟩
  | 69 => ⟨S8x2048x1, .f32⟩
  | 70 => ⟨S_, .f32⟩
  | 71 => ⟨S8x2048x1, .f32⟩
  | 72 => ⟨S8x2048x1, .f32⟩
  | 73 => ⟨S8x2048x2048, .f32⟩
  | 74 => ⟨S8x2048x2048, .f32⟩
  | 75 => ⟨S8x2048x2048, .f32⟩
  | 76 => ⟨S_, .f32⟩
  | 77 => ⟨S8x2048, .f32⟩
  | 78 => ⟨S8x2048x1, .f32⟩
  | 79 => ⟨S_, .f32⟩
  | 80 => ⟨S8x2048x1, .f32⟩
  | 81 => ⟨S8x2048x1, .f32⟩
  | 82 => ⟨S8x2048x2048, .f32⟩
  | 83 => ⟨S8x2048x2048, .f32⟩
  | 84 => ⟨S_, .f32⟩
  | 85 => ⟨S8x2048x1, .f32⟩
  | 86 => ⟨S8x2048x1, .f32⟩
  | 87 => ⟨S8x2048x1, .f32⟩
  | 88 => ⟨S8x2048x2048, .f32⟩
  | 89 => ⟨S8x2048x2048, .f32⟩
  | 90 => ⟨S1x1x2048, .f32⟩
  | 91 => ⟨S8x2048x2048, .f32⟩
  | 92 => ⟨S8x2048x2048, .f32⟩
  | 93 => ⟨S1x1x2048, .f32⟩
  | 94 => ⟨S8x2048x2048, .f32⟩
  | 95 => ⟨S8x2048x2048, .f32⟩
  | 96 => ⟨S1x2048x2048, .f32⟩
  | 97 => ⟨S2048x2048, .f32⟩
  | 98 => ⟨S8x2048x2048, .f32⟩
  | 99 => ⟨S1x2048, .f32⟩
  | 100 => ⟨S2048, .f32⟩
  | 101 => ⟨S1x1x2048, .f32⟩
  | 102 => ⟨S8x2048x2048, .f32⟩
  | 103 => ⟨S8x2048x2048, .f32⟩
  | 104 => ⟨S_, .f32⟩
  | 105 => ⟨S8x2048x2048, .f32⟩
  | 106 => ⟨S8x2048x2048, .f32⟩
  | 107 => ⟨S_, .f32⟩
  | 108 => ⟨S8x2048x2048, .f32⟩
  | 109 => ⟨S8x2048x2048, .f32⟩
  | 110 => ⟨S8x2048x2048, .f32⟩
  | 111 => ⟨S8x2048x2048, .f32⟩
  | 112 => ⟨S8x2048x2048, .f32⟩
  | 113 => ⟨S_, .f32⟩
  | 114 => ⟨S8x2048x2048, .f32⟩
  | 115 => ⟨S8x2048x2048, .f32⟩
  | 116 => ⟨S8x2048x2048, .f32⟩
  | 117 => ⟨S_, .f32⟩
  | 118 => ⟨S8x2048x2048, .f32⟩
  | 119 => ⟨S8x2048x2048, .f32⟩
  | 120 => ⟨S8x2048x2048, .f32⟩
  | 121 => ⟨S1x2048, .f32⟩
  | 122 => ⟨S2048, .f32⟩
  | 123 => ⟨S1x2048, .f32⟩
  | 124 => ⟨S2048, .f32⟩
  | 125 => ⟨S_, .f32⟩
  | 126 => ⟨S8x2048, .f32⟩
  | 127 => ⟨S8x2048x1, .f32⟩
  | _ => ⟨S8x2048x2048, .f32⟩

abbrev hbmTy0_1 (i : Nat) : BufTy := match i % 128 with
  | 0 => ⟨S_, .f32⟩
  | 1 => ⟨S8x2048x1, .f32⟩
  | 2 => ⟨S8x2048x1, .f32⟩
  | 3 => ⟨S8x2048x2048, .f32⟩
  | 4 => ⟨S8x2048x2048, .f32⟩
  | 5 => ⟨S8x2048x2048, .f32⟩
  | 6 => ⟨S_, .f32⟩
  | 7 => ⟨S8x2048, .f32⟩
  | 8 => ⟨S8x2048x1, .f32⟩
  | 9 => ⟨S_, .f32⟩
  | 10 => ⟨S8x2048x1, .f32⟩
  | 11 => ⟨S8x2048x1, .f32⟩
  | 12 => ⟨S8x2048x2048, .f32⟩
  | 13 => ⟨S8x2048x2048, .f32⟩
  | 14 => ⟨S_, .f32⟩
  | 15 => ⟨S8x2048x1, .f32⟩
  | 16 => ⟨S8x2048x1, .f32⟩
  | 17 => ⟨S8x2048x1, .f32⟩
  | 18 => ⟨S8x2048x2048, .f32⟩
  | 19 => ⟨S8x2048x2048, .f32⟩
  | 20 => ⟨S1x1x2048, .f32⟩
  | 21 => ⟨S8x2048x2048, .f32⟩
  | 22 => ⟨S8x2048x2048, .f32⟩
  | 23 => ⟨S1x1x2048, .f32⟩
  | 24 => ⟨S8x2048x2048, .f32⟩
  | 25 => ⟨S8x2048x2048, .f32⟩
  | 26 => ⟨S1x2048x2048, .f32⟩
  | 27 => ⟨S2048x2048, .f32⟩
  | 28 => ⟨S8x2048x2048, .f32⟩
  | 29 => ⟨S1x2048, .f32⟩
  | 30 => ⟨S2048, .f32⟩
  | 31 => ⟨S1x1x2048, .f32⟩
  | 32 => ⟨S8x2048x2048, .f32⟩
  | 33 => ⟨S8x2048x2048, .f32⟩
  | 34 => ⟨S_, .f32⟩
  | 35 => ⟨S8x2048x2048, .f32⟩
  | 36 => ⟨S8x2048x2048, .f32⟩
  | 37 => ⟨S_, .f32⟩
  | 38 => ⟨S8x2048x2048, .f32⟩
  | 39 => ⟨S8x2048x2048, .f32⟩
  | 40 => ⟨S8x2048x2048, .f32⟩
  | 41 => ⟨S8x2048x2048, .f32⟩
  | 42 => ⟨S8x2048x2048, .f32⟩
  | 43 => ⟨S_, .f32⟩
  | 44 => ⟨S8x2048x2048, .f32⟩
  | 45 => ⟨S8x2048x2048, .f32⟩
  | 46 => ⟨S8x2048x2048, .f32⟩
  | 47 => ⟨S_, .f32⟩
  | 48 => ⟨S8x2048x2048, .f32⟩
  | 49 => ⟨S8x2048x2048, .f32⟩
  | 50 => ⟨S8x2048x2048, .f32⟩
  | 51 => ⟨S1x2048, .f32⟩
  | 52 => ⟨S2048, .f32⟩
  | 53 => ⟨S1x2048, .f32⟩
  | 54 => ⟨S2048, .f32⟩
  | 55 => ⟨S_, .f32⟩
  | 56 => ⟨S8x2048, .f32⟩
  | 57 => ⟨S8x2048x1, .f32⟩
  | 58 => ⟨S_, .f32⟩
  | 59 => ⟨S8x2048x1, .f32⟩
  | 60 => ⟨S8x2048x1, .f32⟩
  | 61 => ⟨S8x2048x2048, .f32⟩
  | 62 => ⟨S8x2048x2048, .f32⟩
  | 63 => ⟨S8x2048x2048, .f32⟩
  | 64 => ⟨S_, .f32⟩
  | 65 => ⟨S8x2048, .f32⟩
  | 66 => ⟨S8x2048x1, .f32⟩
  | 67 => ⟨S_, .f32⟩
  | 68 => ⟨S8x2048x1, .f32⟩
  | 69 => ⟨S8x2048x1, .f32⟩
  | 70 => ⟨S8x2048x2048, .f32⟩
  | 71 => ⟨S8x2048x2048, .f32⟩
  | 72 => ⟨S_, .f32⟩
  | 73 => ⟨S8x2048x1, .f32⟩
  | 74 => ⟨S8x2048x1, .f32⟩
  | 75 => ⟨S8x2048x1, .f32⟩
  | 76 => ⟨S8x2048x2048, .f32⟩
  | 77 => ⟨S8x2048x2048, .f32⟩
  | 78 => ⟨S1x1x2048, .f32⟩
  | 79 => ⟨S8x2048x2048, .f32⟩
  | 80 => ⟨S8x2048x2048, .f32⟩
  | 81 => ⟨S1x1x2048, .f32⟩
  | 82 => ⟨S8x2048x2048, .f32⟩
  | 83 => ⟨S8x2048x2048, .f32⟩
  | 84 => ⟨S1x2048x2048, .f32⟩
  | 85 => ⟨S2048x2048, .f32⟩
  | 86 => ⟨S8x2048x2048, .f32⟩
  | 87 => ⟨S1x2048, .f32⟩
  | 88 => ⟨S2048, .f32⟩
  | 89 => ⟨S1x1x2048, .f32⟩
  | 90 => ⟨S8x2048x2048, .f32⟩
  | 91 => ⟨S8x2048x2048, .f32⟩
  | 92 => ⟨S_, .f32⟩
  | 93 => ⟨S8x2048x2048, .f32⟩
  | 94 => ⟨S8x2048x2048, .f32⟩
  | 95 => ⟨S_, .f32⟩
  | 96 => ⟨S8x2048x2048, .f32⟩
  | 97 => ⟨S8x2048x2048, .f32⟩
  | 98 => ⟨S8x2048x2048, .f32⟩
  | 99 => ⟨S8x2048x2048, .f32⟩
  | 100 => ⟨S8x2048x2048, .f32⟩
  | 101 => ⟨S_, .f32⟩
  | 102 => ⟨S8x2048x2048, .f32⟩
  | 103 => ⟨S8x2048x2048, .f32⟩
  | 104 => ⟨S8x2048x2048, .f32⟩
  | 105 => ⟨S_, .f32⟩
  | 106 => ⟨S8x2048x2048, .f32⟩
  | 107 => ⟨S8x2048x2048, .f32⟩
  | 108 => ⟨S8x2048x2048, .f32⟩
  | _ => ⟨S8x2048x2048, .f32⟩

abbrev hbmTy (i : Nat) : BufTy := match i / 128 with
  | 0 => hbmTy0_0 i
  | 1 => hbmTy0_1 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_8 : Ref sig .tc := ⟨.hbm, 67, rfl⟩
abbrev main_v53 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_10 : Ref sig .tc := ⟨.hbm, 76, rfl⟩
abbrev main_v60 : Ref sig .tc := ⟨.hbm, 77, rfl⟩
abbrev main_v61 : Ref sig .tc := ⟨.hbm, 78, rfl⟩
abbrev main_cst_11 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_12 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_cst_13 : Ref sig .tc := ⟨.hbm, 104, rfl⟩
abbrev main_v85 : Ref sig .tc := ⟨.hbm, 105, rfl⟩
abbrev main_v86 : Ref sig .tc := ⟨.hbm, 106, rfl⟩
abbrev main_cst_14 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_cst_15 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_cst_16 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_cst_17 : Ref sig .tc := ⟨.hbm, 125, rfl⟩
abbrev main_v102 : Ref sig .tc := ⟨.hbm, 126, rfl⟩
abbrev main_v103 : Ref sig .tc := ⟨.hbm, 127, rfl⟩
abbrev main_cst_18 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_cst_19 : Ref sig .tc := ⟨.hbm, 134, rfl⟩
abbrev main_v109 : Ref sig .tc := ⟨.hbm, 135, rfl⟩
abbrev main_v110 : Ref sig .tc := ⟨.hbm, 136, rfl⟩
abbrev main_cst_20 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_cst_21 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_cst_22 : Ref sig .tc := ⟨.hbm, 162, rfl⟩
abbrev main_v134 : Ref sig .tc := ⟨.hbm, 163, rfl⟩
abbrev main_v135 : Ref sig .tc := ⟨.hbm, 164, rfl⟩
abbrev main_cst_23 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_cst_24 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_cst_25 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_cst_26 : Ref sig .tc := ⟨.hbm, 183, rfl⟩
abbrev main_v151 : Ref sig .tc := ⟨.hbm, 184, rfl⟩
abbrev main_v152 : Ref sig .tc := ⟨.hbm, 185, rfl⟩
abbrev main_cst_27 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_cst_28 : Ref sig .tc := ⟨.hbm, 192, rfl⟩
abbrev main_v158 : Ref sig .tc := ⟨.hbm, 193, rfl⟩
abbrev main_v159 : Ref sig .tc := ⟨.hbm, 194, rfl⟩
abbrev main_cst_29 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_cst_30 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_cst_31 : Ref sig .tc := ⟨.hbm, 220, rfl⟩
abbrev main_v183 : Ref sig .tc := ⟨.hbm, 221, rfl⟩
abbrev main_v184 : Ref sig .tc := ⟨.hbm, 222, rfl⟩
abbrev main_cst_32 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_cst_33 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_cst_34 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩

abbrev nD : Nat := 1
abbrev τ : Topo := Topo.v7x

variable {F : FTy → Type} [FloatOps F]

class Facts₀ : Prop where
  slices_S4x2048_S1x2048_0_0 : S4x2048.Slices ![0, 0] S1x2048
  shapeCasts_S1x2048_S2048 : S1x2048.ShapeCasts S2048
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x2048_0_1_2 : S8x2048x1.BroadcastsInDim S8x2048x2048 (![0, 1, 2] : Fin 3 → Fin S8x2048x2048.rank)
  bcast_S2048_S1x1x2048_2 : S2048.BroadcastsInDim S1x1x2048 (![2] : Fin 1 → Fin S1x1x2048.rank)
  bcast_S1x1x2048_S8x2048x2048_0_1_2 : S1x1x2048.BroadcastsInDim S8x2048x2048 (![0, 1, 2] : Fin 3 → Fin S8x2048x2048.rank)
  slices_S4x2048x2048_S1x2048x2048_0_0_0 : S4x2048x2048.Slices ![0, 0, 0] S1x2048x2048
  shapeCasts_S1x2048x2048_S2048x2048 : S1x2048x2048.ShapeCasts S2048x2048
  bcast_S_S8x2048x2048 : S_.BroadcastsInDim S8x2048x2048 (![] : Fin 0 → Fin S8x2048x2048.rank)
  slices_S4x2048_S1x2048_1_0 : S4x2048.Slices ![1, 0] S1x2048
  slices_S4x2048x2048_S1x2048x2048_1_0_0 : S4x2048x2048.Slices ![1, 0, 0] S1x2048x2048
  slices_S4x2048_S1x2048_2_0 : S4x2048.Slices ![2, 0] S1x2048
  slices_S4x2048x2048_S1x2048x2048_2_0_0 : S4x2048x2048.Slices ![2, 0, 0] S1x2048x2048
  slices_S4x2048_S1x2048_3_0 : S4x2048.Slices ![3, 0] S1x2048
  slices_S4x2048x2048_S1x2048x2048_3_0_0 : S4x2048x2048.Slices ![3, 0, 0] S1x2048x2048
  dot_S8x2048x2048_S2048x2048_S8x2048x2048_2_1_01_0_n_n_wf : DotDims.WF S8x2048x2048 S2048x2048 S8x2048x2048 [2] [1] [0, 1] [0] [] []

variable [Facts₀]

def dot_S8x2048x2048_S2048x2048_S8x2048x2048_2_1_01_0_n_n : DotDims S8x2048x2048 S2048x2048 S8x2048x2048 where
  lhsContracting := [2]
  rhsContracting := [1]
  lhsNonContracting := [0, 1]
  rhsNonContracting := [0]
  lhsBatch := []
  rhsBatch := []
  wf := dot_S8x2048x2048_S2048x2048_S8x2048x2048_2_1_01_0_n_n_wf

class Facts : Prop extends Facts₀ where

variable [Facts]
-- ==== Proof.Spec.lean ====
/-
  The network both programs compute, one row at a time, on the extended reals.

  A row `r` of `n` entries is normalised (its mean and variance over the count `cnt`, the deviation times the
  reciprocal square root of the variance plus `eps`, then a gain and a shift per entry), multiplied by a weight matrix
  (`W e d`, output entry `e`, input entry `d`), a bias added, and passed through the tanh form of the GELU.  The GELU
  is written twice: `geluR` is `(y/2)·(1 + tanh(s·(y + c·y³)))` and `geluK` is `y·logistic(2s·(y + c·y³))`; they are the
  same function of every extended real (`geluK_eq_geluR`, proved in another module).  A layer acts on one row and the
  network is four layers, layer `l` taking its parameters from slab `l` of the stacked parameter arrays.
-/
import Idealize.ShloMosaic.PureOps.Ideal
import Idealize.ShloMosaic.Lib.ValueIdx

noncomputable section

open scoped BigOperators

namespace Cert.Mlp

open Idealize.ShloMosaic Idealize.ShloMosaic.ValueIdx

/-- The number of entries of a row, as the float both programs divide by (2048). -/
def cnt : EReal := Ideal.ofBits .f32 0x45000000#32
/-- The variance's guard (the float nearest 1e-5). -/
def eps : EReal := Ideal.ofBits .f32 0x3727C5AC#32
/-- The cubic term's coefficient (the float nearest 0.044715). -/
def cub : EReal := Ideal.ofBits .f32 0x3D372713#32
/-- The logistic form's scale: twice `sR`, exactly. -/
def sK : EReal := Ideal.ofBits .f32 0x3FCC422A#32
/-- The tanh form's scale (the float nearest the square root of 2/π). -/
def sR : EReal := Ideal.ofBits .f32 0x3F4C422A#32
/-- One half. -/
def half : EReal := Ideal.ofBits .f32 0x3F000000#32
/-- One. -/
def one : EReal := Ideal.ofBits .f32 0x3F800000#32

variable {n : ℕ}

/-- The mean of a row. -/
def rMean (r : Fin n → EReal) : EReal := Ideal.div (∑ k : Fin n, r k) cnt
/-- An entry's deviation from the row's mean. -/
def rCen (r : Fin n → EReal) (k : Fin n) : EReal := r k - rMean r
/-- The variance of a row. -/
def rVar (r : Fin n → EReal) : EReal := Ideal.div (∑ k : Fin n, rCen r k * rCen r k) cnt
/-- The normalised row with gain `g` and shift `b`. -/
def rLn (r g b : Fin n → EReal) (k : Fin n) : EReal := rCen r k * Ideal.rsqrt (rVar r + eps) * g k + b k
/-- The normalised row times the weights, plus the bias: entry `e` of the layer before its activation. -/
def rPre (r g b : Fin n → EReal) (W : Fin n → Fin n → EReal) (bias : Fin n → EReal) (e : Fin n) : EReal :=
  (∑ d : Fin n, rLn r g b d * W e d) + bias e

/-- `y + c·y³`, multiplied out from the left as both programs do. -/
def cubic (y : EReal) : EReal := y + ((cub * y) * y) * y
/-- The activation through the logistic function. -/
def geluK (y : EReal) : EReal := y * Ideal.logistic (sK * cubic y)
/-- The activation through the hyperbolic tangent. -/
def geluR (y : EReal) : EReal := (half * y) * (one + Ideal.tanh (sR * cubic y))

/-- The stacked weights `[4, 2048, 2048]`, biases, gains and shifts `[4, 2048]`, and the input `[8, 2048, 2048]`. -/
abbrev WArr : Type := (⟨3, ![4, 2048, 2048]⟩ : Shape).Idx → EReal
abbrev PArr : Type := (⟨2, ![4, 2048]⟩ : Shape).Idx → EReal
abbrev XArr : Type := (⟨3, ![8, 2048, 2048]⟩ : Shape).Idx → EReal

/-- Layer `l` on one row, with the activation `act`. -/
def layer (act : EReal → EReal) (W : WArr) (b lnw lnb : PArr) (l : Fin 4) (r : Fin 2048 → EReal) : Fin 2048 → EReal :=
  fun e => act (rPre r (fun k => lnw (ix2 l k)) (fun k => lnb (ix2 l k)) (fun e d => W (ix3 l e d)) (fun e => b (ix2 l e)) e)

/-- The four layers on one row. -/
def net (act : EReal → EReal) (W : WArr) (b lnw lnb : PArr) (r : Fin 2048 → EReal) : Fin 2048 → EReal :=
  layer act W b lnw lnb 3 (layer act W b lnw lnb 2 (layer act W b lnw lnb 1 (layer act W b lnw lnb 0 r)))

/-- The whole result: entry `(i, j, e)` is entry `e` of the network applied to row `(i, j)` of the input. -/
def result (act : EReal → EReal) (x : XArr) (W : WArr) (b lnw lnb : PArr) : XArr :=
  fun i => net act W b lnw lnb (fun d => x (ix3 (⟨(i 0).val, (i 0).isLt⟩ : Fin 8) (⟨(i 1).val, (i 1).isLt⟩ : Fin 2048) d))
    (⟨(i 2).val, (i 2).isLt⟩ : Fin 2048)

theorem result_apply (act : EReal → EReal) (x : XArr) (W : WArr) (b lnw lnb : PArr) (i : Fin 8) (j e : Fin 2048) :
    result act x W b lnw lnb (ix3 i j e) = net act W b lnw lnb (fun d => x (ix3 i j d)) e := rfl

end Cert.Mlp

end
-- ==== Proof.Gelu.lean ====
/-
  The two spellings of the activation are one function of every extended real.

  The constants are float words read exactly: `half` is `1/2`, `one` is `1`, and the word of `sK` is the word
  of `sR` with the exponent field one higher, so `sK = 2 · sR` exactly, `sR` a positive real `s`.  With
  `z = sR · cubic y` (any extended real) the logistic form's argument is `2 · z`, and
  `logistic (2 · z) = (1/2) · (1 + tanh z)` for every extended real `z`: at `-∞` both sides are `0`, at `+∞` both are
  `1`, and at a real `r` it is the identity `1 / (1 + e^(-2r)) = (1/2) · (1 + (e^r - e^(-r)) / (e^r + e^(-r)))`.
  The rest is commutativity and associativity of the extended reals' multiplication (no distributivity, which
  fails at the infinities): `y · ((1/2) · t) = ((1/2) · y) · t`.
-/
import proofs.«144377_j62234076119626_2_alg».proof.Proof.Spec
import Idealize.ShloMosaic.PureOps.Ideal

noncomputable section

namespace Cert.Mlp

open Idealize.ShloMosaic

/-- The tanh form's scale as a real: the significand `2^23 + 0x4C422A = 13386282` times `2^(126 - 127 - 23)`. -/
def sReal : ℝ := 13386282 / 16777216

theorem sReal_pos : 0 < sReal := by unfold sReal; norm_num

/-- The word `0x3F000000` denotes `1/2`. -/
theorem half_eq : half = (((1 : ℝ) / 2 : ℝ) : EReal) := by
  simp [half, Ideal.ofBits, Ideal.ieee, -EReal.coe_mul]; norm_num

/-- The word `0x3F800000` denotes `1`. -/
theorem one_eq : one = 1 := by
  simp [one, Ideal.ofBits, Ideal.ieee, -EReal.coe_mul]; norm_num

/-- The word `0x3F4C422A` (exponent field 126) denotes the real `sReal`. -/
theorem sR_eq : sR = ((sReal : ℝ) : EReal) := by
  simp [sR, sReal, Ideal.ofBits, Ideal.ieee, -EReal.coe_mul]; norm_num

/-- The word `0x3FCC422A` has the same significand and exponent field 127: it denotes `2 · sReal`. -/
theorem sK_eq : sK = ((2 * sReal : ℝ) : EReal) := by
  simp [sK, sReal, Ideal.ofBits, Ideal.ieee, -EReal.coe_mul]; norm_num

/-- On the reals, `1 / (1 + e^(-2r)) = (1/2) · (1 + tanh r)`: with `a = e^r`, `b = e^(-r)` and `a · b = 1`, the right
    side is `a / (a + b)` and the left is `1 / (1 + b²)`; cross-multiplied, `a + a·b² = a + b`. -/
theorem real_logistic_two_mul (r : ℝ) :
    (1 + Real.exp (-(2 * r)))⁻¹ = 1 / 2 * (1 + Real.tanh r) := by
  have hp : 0 < Real.exp r := Real.exp_pos r
  have hn : 0 < Real.exp (-r) := Real.exp_pos (-r)
  have hab : Real.exp r * Real.exp (-r) = 1 := by rw [← Real.exp_add, add_neg_cancel, Real.exp_zero]
  have h2 : Real.exp (-(2 * r)) = Real.exp (-r) * Real.exp (-r) := by
    rw [← Real.exp_add]; congr 1; ring
  rw [Real.tanh_eq, h2]
  generalize Real.exp r = a at *
  generalize Real.exp (-r) = b at *
  have hs : 0 < a + b := add_pos hp hn
  have h1 : 0 < 1 + b * b := by positivity
  field_simp
  linear_combination (-2 * b) * hab

/-- `logistic (2 · z) = (1/2) · (1 + tanh z)` for every extended real `z`: at `-∞`, `2 · (-∞) = -∞`, the logistic is `0`
    and `1 + tanh (-∞) = 1 + (-1) = 0`; at `+∞`, the logistic is `1` and `(1/2) · (1 + 1) = 1`; at a real, the real
    identity above. -/
theorem logistic_two_mul (z : EReal) :
    Ideal.logistic (((2 : ℝ) : EReal) * z) = half * (one + Ideal.tanh z) := by
  rw [half_eq, one_eq]
  induction z using EReal.rec with
  | bot =>
    rw [EReal.coe_mul_bot_of_pos (by norm_num), Ideal.logistic_bot, Ideal.tanh_bot]
    have h : (1 : EReal) + -1 = 0 := by
      rw [← EReal.coe_one, ← EReal.coe_neg, ← EReal.coe_add, add_neg_cancel, EReal.coe_zero]
    rw [h, mul_zero]
  | coe r =>
    rw [← EReal.coe_mul, Ideal.logistic_coe, Ideal.tanh_coe, ← EReal.coe_one, ← EReal.coe_add, ← EReal.coe_mul,
      real_logistic_two_mul]
  | top =>
    rw [EReal.coe_mul_top_of_pos (by norm_num), Ideal.logistic_top, Ideal.tanh_top, ← EReal.coe_one,
      ← EReal.coe_add, ← EReal.coe_mul]
    norm_num

/-- The logistic form's argument is twice the tanh form's: `sK · c = (2 · s) · c = 2 · (s · c)`. -/
theorem sK_mul (c : EReal) : sK * c = ((2 : ℝ) : EReal) * (sR * c) := by
  rw [sK_eq, sR_eq, EReal.coe_mul, mul_assoc]

/-- The activation's two forms agree at every extended real, the infinities included. -/
theorem geluK_eq_geluR (y : EReal) : geluK y = geluR y := by
  unfold geluK geluR
  rw [sK_mul, logistic_two_mul, mul_left_comm, mul_assoc half y]

end Cert.Mlp

end
-- ==== Proof.KRun.lean ====
/-
  The kernel program's run with its result named.

  @main is the generated list of segments (three stretches of host operations around the two calls).  Run from the
  launch memory, every weakly fair execution terminates, and the last thread state holds every unscoped buffer at the
  contents the segments' fold leaves (`Gen.W5`): the result buffer among them, and the arguments as launched.
-/
import proofs.«144377_j62234076119626_2_alg».proof.Proof.Gen.KernelIdeal.Frame

set_option maxRecDepth 16384

noncomputable section

namespace Cert.Mlp.K

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the result buffer at the fold's last contents and the
    arguments unchanged. -/
theorem run_value : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.Mlp.K

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibHostLayout.lean ====
/-
  The host's layout operations, row sums and transposed contractions, read at an index.

  A reference written with `keepdims` reductions moves between a vector `[n]`, a column `[n, 1]` and an array `[n, c]`
  by `broadcast_in_dim`: a vector broadcast to a column reads the vector at the row; a column broadcast along the rows
  reads the column at the row; a vector broadcast to one row and that row to every row reads the vector at the column;
  a scalar broadcast everywhere reads the scalar.  On the extended reals the host's sum of an `[n, c]` array along its
  second axis reads, at row `q`, the initial value plus the sum of the row; and the host's contraction of the second
  axes of both rank-2 operands (no batch axis) reads, at `(q, d)`, the sum over `p` of `l (q, p) · r (d, p)`.  All of it
  at any extents.
-/
import Idealize.ShloMosaic.PureOps.Ideal.Laws
import Idealize.ShloMosaic.Lib.ValueIdx
import Idealize.ShloMosaic.Lib.ValueLayout
import Idealize.ShloMosaic.Lib.Pipeline.Value
import proofs.«144377_j62234076119626_2_alg».proof.Proof.LibRowBlocks

noncomputable section

open scoped BigOperators

namespace Cert.HostLayout

open Idealize.ShloMosaic Idealize.ShloMosaic.ValueIdx

section Layout

variable {α : Type}

/-- A vector `[n]` broadcast to a column `[n, 1]` reads, at `(q, u)`, the vector at `q`. -/
theorem bcast_vec_col {n : ℕ} (x : (⟨1, ![n]⟩ : Shape).Idx → α)
    (h : (⟨1, ![n]⟩ : Shape).BroadcastsInDim ⟨2, ![n, 1]⟩ ![0]) (q : Fin n) (u : Fin 1) :
    broadcastInDim ⟨2, ![n, 1]⟩ ![0] h x (ix2 q u) = x (ix1 q) :=
  broadcastInDim_apply ![0] h x (ix2 q u) (ix1 q) fun a => by
    match a with
    | ⟨0, _⟩ =>
      show q.val = if n = 1 then 0 else q.val
      split
      · have := q.isLt; omega
      · rfl

/-- A scalar broadcast to `[a, b]` reads the scalar everywhere. -/
theorem bcast_scalar_mat {a b : ℕ} (x : (⟨0, ![]⟩ : Shape).Idx → α)
    (h : (⟨0, ![]⟩ : Shape).BroadcastsInDim ⟨2, ![a, b]⟩ ![]) (p : Fin a) (q : Fin b) :
    broadcastInDim ⟨2, ![a, b]⟩ ![] h x (ix2 p q) = x ix0 :=
  broadcastInDim_apply ![] h x (ix2 p q) ix0 fun a => a.elim0

/-- A column `[n, 1]` broadcast to `[n, c]` reads, at `(q, d)`, the column at row `q`. -/
theorem bcast_col_mat {n c : ℕ} (x : (⟨2, ![n, 1]⟩ : Shape).Idx → α)
    (h : (⟨2, ![n, 1]⟩ : Shape).BroadcastsInDim ⟨2, ![n, c]⟩ ![0, 1]) (q : Fin n) (d : Fin c) :
    broadcastInDim ⟨2, ![n, c]⟩ ![0, 1] h x (ix2 q d) = x (ix2 q (0 : Fin 1)) :=
  broadcastInDim_apply ![0, 1] h x (ix2 q d) (ix2 q (0 : Fin 1)) fun a => by
    match a with
    | ⟨0, _⟩ =>
      show q.val = if n = 1 then 0 else q.val
      split
      · have := q.isLt; omega
      · rfl
    | ⟨1, _⟩ => rfl

/-- A vector `[N]` broadcast to one row and that row to every row of `[M, N]` reads, at `(p, q)`, the vector at `q`. -/
theorem bcast_vec_mat {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]

end Layout

/-- The host's sum of an `[n, c]` array along its second axis reads, at row `q`, the initial value plus the sum of the
    row's entries. -/
theorem hostRowSum {n c : ℕ} (x : FVec Ideal ⟨2, ![n, c]⟩ .f32) (init : FVec Ideal ⟨0, ![]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (q : Fin n) :
    Host.reduceAdd x init h' hu (ix1 q) = init (Shape.Idx.first hu) + ∑ k : Fin c, x (ix2 q k) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

/-- The host's `l · rᵀ` (the second axes contracted, no batch axis) reads, at `(q, d)`, the sum over `p` of
    `l (q, p) · r (d, p)`. -/
theorem hostDot_abT {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    Host.dotGeneral (F := Ideal) D prec l r (ix2 q d) = ∑ p : Fin K, l (ix2 q p) * r (ix2 d p) :=
  (Ideal.dotGeneral_apply D prec .single l r (ix2 q d)).trans (Cert.RowBlocks.abT_sum D h1 h2 h3 h4 h5 h6 l r q d)

end Cert.HostLayout

end
-- ==== Proof.LibLayerNorm.lean ====
/-
  Row normalisation on the extended reals, over rank-2 arrays of any extents.

  For an array `X` of `M` rows and a positive count `cnt`, `rowMean X cnt p` is the sum of row `p` divided by `cnt` and
  `rowVar X cnt p` the sum of the squared deviations of row `p` from that mean, divided by `cnt`.  The normalised array
  is written in two ways: `lnK` multiplies the deviation by the reciprocal square root of `rowVar + eps`, `lnH` divides
  it by the square root.  A square is never negative on the extended reals (the square of an infinity is `+∞`), so
  `rowVar` is nonnegative whatever the entries are, `rowVar + eps` is positive for a positive `eps`, and there the
  quotient by a square root IS the product with the reciprocal square root (at `+∞` both are the product with `0`):
  `lnK = lnH` with no finiteness assumption.  `scaleShift Y g b` multiplies every row by the one-row array `g` and adds
  the one-row array `b`.  The vector unit's and the host's spellings of each step are read as these functions, and every
  one of them at an index depends on one row of `X` only.
-/
import proofs.«144377_j62234076119626_2_alg».proof.Proof.LibDense
import proofs.«144377_j62234076119626_2_alg».proof.Proof.LibRowBlocks
import proofs.«144377_j62234076119626_2_alg».proof.Proof.LibHostLayout

noncomputable section

open scoped BigOperators

namespace Cert.LayerNorm

open Idealize.ShloMosaic Idealize.ShloMosaic.ValueIdx Cert.Dense

/-! ## The functions -/

/-- The mean of row `p`: its sum over the count. -/
def rowMean {M N : ℕ} (X : Mat M N) (cnt : EReal) (p : Fin M) : EReal := Ideal.div (∑ k : Fin N, X (ix2 p k)) cnt

/-- The deviation from the row's mean. -/
def centered {M N : ℕ} (X : Mat M N) (cnt : EReal) : Mat M N := fun i => X i - rowMean X cnt (c0 i)

/-- The sum of the squared deviations of row `p`. -/
def sqSum {M N : ℕ} (X : Mat M N) (cnt : EReal) (p : Fin M) : EReal :=
  ∑ k : Fin N, centered X cnt (ix2 p k) * centered X cnt (ix2 p k)

/-- The variance of row `p`. -/
def rowVar {M N : ℕ} (X : Mat M N) (cnt : EReal) (p : Fin M) : EReal := Ideal.div (sqSum X cnt p) cnt

/-- The row means as a column. -/
def meanCol {M N : ℕ} (X : Mat M N) (cnt : EReal) : Mat M 1 := fun i => rowMean X cnt (c0 i)
/-- The squared-deviation sums as a vector. -/
def sqSumVec {M N : ℕ} (X : Mat M N) (cnt : EReal) : Row M := fun i => sqSum X cnt ⟨(i 0).val, (i 0).isLt⟩
/-- The row variances as a column. -/
def varCol {M N : ℕ} (X : Mat M N) (cnt : EReal) : Mat M 1 := fun i => rowVar X cnt (c0 i)

/-- Normalised rows, the deviation TIMES the reciprocal square root. -/
def lnK {M N : ℕ} (X : Mat M N) (cnt eps : EReal) : Mat M N :=
  fun i => centered X cnt i * Ideal.rsqrt (rowVar X cnt (c0 i) + eps)

/-- Normalised rows, the deviation OVER the square root. -/
def lnH {M N : ℕ} (X : Mat M N) (cnt eps : EReal) : Mat M N :=
  fun i => Ideal.div (centered X cnt i) (Ideal.sqrt (rowVar X cnt (c0 i) + eps))

/-- Every row times a one-row array, plus a one-row array. -/
def scaleShift {M N : ℕ} (Y : Mat M N) (g b : Mat 1 N) : Mat M N :=
  fun i => Y i * g (ix2 (0 : Fin 1) (c1 i)) + b (ix2 (0 : Fin 1) (c1 i))

/-! ## The quotient by a square root is the product with the reciprocal square root, above zero -/

theorem div_sqrt_eq_mul_rsqrt (a v : EReal) (hv : 0 < v) : Ideal.div a (Ideal.sqrt v) = a * Ideal.rsqrt v := by
  induction v using EReal.rec with
  | bot => exact absurd hv (by simp)
  | top =>
    show Ideal.div a ⊤ = a * 0
    unfold Ideal.div
    rw [if_neg (by simp), EReal.inv_top]
  | coe r =>
    have hr : 0 < r := by exact_mod_cast hv
    have hs : Real.sqrt r ≠ 0 := (Real.sqrt_pos.mpr hr).ne'
    show Ideal.div a (if r < 0 then (⊥ : EReal) else ((Real.sqrt r : ℝ) : EReal))
      = a * (if r < 0 then (⊥ : EReal) else if r = 0 then (⊤ : EReal) else (((Real.sqrt r)⁻¹ : ℝ) : EReal))
    rw [if_neg (not_lt.mpr hr.le), if_neg (not_lt.mpr hr.le), if_neg hr.ne']
    unfold Ideal.div
    rw [if_neg (by exact_mod_cast hs), EReal.coe_inv]

theorem mul_self_nonneg' (d : EReal) : 0 ≤ d * d := by
  induction d using EReal.rec with
  | bot => simp
  | top => simp
  | coe r => exact_mod_cast mul_self_nonneg r

theorem sqSum_nonneg {M N : ℕ} (X : Mat M N) (cnt : EReal) (p : Fin M) : 0 ≤ sqSum X cnt p :=
  Finset.sum_nonneg fun _ _ => mul_self_nonneg' _

theorem rowVar_nonneg {M N : ℕ} (X : Mat M N) {r : ℝ} (hr : 0 < r) (p : Fin M) : 0 ≤ rowVar X (r : EReal) p := by
  unfold rowVar
  rw [Ideal.div_coe hr.ne']
  exact mul_nonneg (sqSum_nonneg X _ p) (by exact_mod_cast (one_div_pos.mpr hr).le)

/-- The two spellings of the normalisation agree: no finiteness of the entries is needed. -/
theorem lnK_eq_lnH {M N : ℕ} (X : Mat M N) {r : ℝ} (hr : 0 < r) {eps : EReal} (heps : 0 < eps) :
    lnK X (r : EReal) eps = lnH X (r : EReal) eps := by
  funext i
  exact (div_sqrt_eq_mul_rsqrt _ _ (lt_of_lt_of_le heps (le_add_of_nonneg_left (rowVar_nonneg X hr _)))).symm

/-! ## At an index: one row of the array decides -/

theorem rowMean_congr {M M' N : ℕ} (X : Mat M N) (X' : Mat M' N) (cnt : EReal) (p : Fin M) (p' : Fin M')
    (h : ∀ k, X' (ix2 p' k) = X (ix2 p k)) : rowMean X' cnt p' = rowMean X cnt p := by
  unfold rowMean; simp only [h]

theorem centered_congr {M M' N : ℕ} (X : Mat M N) (X' : Mat M' N) (cnt : EReal) (p : Fin M) (p' : Fin M')
    (h : ∀ k, X' (ix2 p' k) = X (ix2 p k)) (q : Fin N) : centered X' cnt (ix2 p' q) = centered X cnt (ix2 p q) := by
  show X' (ix2 p' q) - rowMean X' cnt p' = X (ix2 p q) - rowMean X cnt p
  rw [h q, rowMean_congr X X' cnt p p' h]

theorem rowVar_congr {M M' N : ℕ} (X : Mat M N) (X' : Mat M' N) (cnt : EReal) (p : Fin M) (p' : Fin M')
    (h : ∀ k, X' (ix2 p' k) = X (ix2 p k)) : rowVar X' cnt p' = rowVar X cnt p := by
  unfold rowVar sqSum; simp only [centered_congr X X' cnt p p' h]

theorem lnH_congr {M M' N : ℕ} (X : Mat M N) (X' : Mat M' N) (cnt eps : EReal) (p : Fin M) (p' : Fin M')
    (h : ∀ k, X' (ix2 p' k) = X (ix2 p k)) (q : Fin N) : lnH X' cnt eps (ix2 p' q) = lnH X cnt eps (ix2 p q) := by
  show Ideal.div (centered X' cnt (ix2 p' q)) (Ideal.sqrt (rowVar X' cnt p' + eps))
    = Ideal.div (centered X cnt (ix2 p q)) (Ideal.sqrt (rowVar X cnt p + eps))
  rw [centered_congr X X' cnt p p' h, rowVar_congr X X' cnt p p' h]

theorem scaleShift_apply {M N : ℕ} (Y : Mat M N) (g b : Mat 1 N) (p : Fin M) (q : Fin N) :
    scaleShift Y g b (ix2 p q) = Y (ix2 p q) * g (ix2 (0 : Fin 1) q) + b (ix2 (0 : Fin 1) q) := rfl

/-! ## The vector unit's spelling -/

section Vec

variable {M N : ℕ} (X : FVec Ideal ⟨2, ![M, N]⟩ .f32) (cw ew : BitVec 32)
  (hr : (⟨2, ![M, N]⟩ : Shape).Reduces [1] ⟨1, ![M]⟩) (hφ : FKind.Formats .f32)
  (hacc : (0x00000000#32 : BitVec 32) = 0x00000000#32)
  (hc : (⟨1, ![M]⟩ : Shape).ShapeCasts ⟨2, ![M, 1]⟩) (hb : (⟨2, ![M, 1]⟩ : Shape).Broadcasts ⟨2, ![M, N]⟩)

/-- The row sums cast to a column and divided by the count splat: the column of means. -/
theorem vecMeanCol :
    divf (shapeCast ⟨2, ![M, 1]⟩ (multiReduction .add [1] ⟨1, ![M]⟩ X 0x00000000#32 hr hφ hacc) hc)
        (broadcast ⟨2, ![M, 1]⟩ (Scalar.ofBits (F := Ideal) .f32 cw))
      = meanCol X (Ideal.ofBits .f32 cw) := by
  funext i
  obtain ⟨p, u, rfl⟩ : ∃ (p : Fin M) (u : Fin 1), i = ix2 p u := ⟨i 0, i 1, eq_ix2 i⟩
  show Ideal.div (shapeCast ⟨2, ![M, 1]⟩ (multiReduction .add [1] ⟨1, ![M]⟩ X 0x00000000#32 hr hφ hacc) hc (ix2 p u))
      (Ideal.ofBits .f32 cw) = rowMean X (Ideal.ofBits .f32 cw) p
  rw [Cert.RowBlocks.shapeCast_col_apply, Cert.RowBlocks.rowSum_apply]
  rfl

/-- The array less the column of means broadcast along the rows: the deviations. -/
theorem vecCentered (cnt : EReal) :
    subf (F := Ideal) (φ := .f32) X (broadcastTo ⟨2, ![M, N]⟩ (meanCol X cnt) hb) = centered X cnt := by
  funext i
  obtain ⟨p, q, rfl⟩ : ∃ (p : Fin M) (q : Fin N), i = ix2 p q := ⟨i 0, i 1, eq_ix2 i⟩
  show X (ix2 p q) - broadcastTo ⟨2, ![M, N]⟩ (meanCol X cnt) hb (ix2 p q) = _
  rw [Cert.RowBlocks.broadcastTo_col_apply]
  rfl

/-- The row sums of the squared deviations. -/
theorem vecSqSum (cnt : EReal) :
    multiReduction (F := Ideal) (φ := .f32) .add [1] ⟨1, ![M]⟩
        (mulf (F := Ideal) (φ := .f32) (centered X cnt) (centered X cnt)) 0x00000000#32 hr hφ hacc
      = sqSumVec X cnt := by
  funext i
  obtain ⟨p, rfl⟩ : ∃ p : Fin M, i = ix1 p := ⟨i 0, eq_ix1 i⟩
  exact Cert.RowBlocks.rowSum_apply (mulf (F := Ideal) (φ := .f32) (centered X cnt) (centered X cnt)) hr hφ hacc p

/-- Those sums cast to a column and divided by the count splat: the column of variances. -/
theorem vecVarCol (cnt : EReal) :
    divf (F := Ideal) (φ := .f32) (shapeCast ⟨2, ![M, 1]⟩ (sqSumVec X cnt) hc) (broadcast ⟨2, ![M, 1]⟩ (Scalar.ofBits (F := Ideal) .f32 cw))
      = fun i => Ideal.div (sqSum X cnt (c0 i)) (Ideal.ofBits .f32 cw) := by
  funext i
  obtain ⟨p, u, rfl⟩ : ∃ (p : Fin M) (u : Fin 1), i = ix2 p u := ⟨i 0, i 1, eq_ix2 i⟩
  show Ideal.div (shapeCast ⟨2, ![M, 1]⟩ (sqSumVec X cnt) hc (ix2 p u)) (Ideal.ofBits .f32 cw) = _
  rw [Cert.RowBlocks.shapeCast_col_apply]
  rfl

/-- The deviations times the broadcast reciprocal square root of the variance column plus the epsilon splat. -/
theorem vecLnK :
    mulf (F := Ideal) (φ := .f32) (centered X (Ideal.ofBits .f32 cw))
        (broadcastTo ⟨2, ![M, N]⟩
          (rsqrt (F := Ideal) (φ := .f32) (addf (F := Ideal) (φ := .f32)
            (fun i => Ideal.div (sqSum X (Ideal.ofBits .f32 cw) (c0 i)) (Ideal.ofBits .f32 cw))
            (broadcast ⟨2, ![M, 1]⟩ (Scalar.ofBits (F := Ideal) .f32 ew)))) hb)
      = lnK X (Ideal.ofBits .f32 cw) (Ideal.ofBits .f32 ew) := by
  funext i
  obtain ⟨p, q, rfl⟩ : ∃ (p : Fin M) (q : Fin N), i = ix2 p q := ⟨i 0, i 1, eq_ix2 i⟩
  show centered X (Ideal.ofBits .f32 cw) (ix2 p q) * broadcastTo ⟨2, ![M, N]⟩ _ hb (ix2 p q) = _
  rw [Cert.RowBlocks.broadcastTo_col_apply]
  rfl

/-- Every row times the broadcast row `g`, plus the broadcast row `b`. -/
theorem vecScaleShift (Y : FVec Ideal ⟨2, ![M, N]⟩ .f32) (g b : FVec Ideal ⟨2, ![1, N]⟩ .f32)
    (h1 : (⟨2, ![1, N]⟩ : Shape).Broadcasts ⟨2, ![M, N]⟩) :
    addf (mulf Y (broadcastTo ⟨2, ![M, N]⟩ g h1)) (broadcastTo ⟨2, ![M, N]⟩ b h1) = scaleShift Y g b := by
  funext i
  obtain ⟨p, q, rfl⟩ : ∃ (p : Fin M) (q : Fin N), i = ix2 p q := ⟨i 0, i 1, eq_ix2 i⟩
  show Y (ix2 p q) * broadcastTo ⟨2, ![M, N]⟩ g h1 (ix2 p q) + broadcastTo ⟨2, ![M, N]⟩ b h1 (ix2 p q) = _
  rw [broadcastTo_1b_ab_apply, broadcastTo_1b_ab_apply]
  rfl

end Vec

/-! ## The host's spelling -/

section Host

variable {M N : ℕ} (X : FVec Ideal ⟨2, ![M, N]⟩ .f32) (cw ew : BitVec 32)
  (hr' : (⟨2, ![M, N]⟩ : Shape).ReducesTo [1] ⟨1, ![M]⟩)
  (hu : 0 < (⟨0, ![]⟩ : Shape).numel)
  (hv : (⟨1, ![M]⟩ : Shape).BroadcastsInDim ⟨2, ![M, 1]⟩ ![0])
  (h0 : (⟨0, ![]⟩ : Shape).BroadcastsInDim ⟨2, ![M, 1]⟩ ![])
  (hb : (⟨2, ![M, 1]⟩ : Shape).BroadcastsInDim ⟨2, ![M, N]⟩ ![0, 1])

/-- The host's row sums from a zero, broadcast to a column, over the broadcast count: the column of means. -/
theorem hostMeanCol (hr : (⟨2, ![M, N]⟩ : Shape).Reduces [1] ⟨1, ![M]⟩) :
    Host.divf (F := Ideal) (φ := .f32) (broadcastInDim ⟨2, ![M, 1]⟩ ![0] hv (Host.reduceAdd X (constant (F := Ideal) ⟨0, ![]⟩ .f32 0x00000000#32) hr' hu))
        (broadcastInDim ⟨2, ![M, 1]⟩ ![] h0 (constant (F := Ideal) ⟨0, ![]⟩ .f32 cw))
      = meanCol X (Ideal.ofBits .f32 cw) := by
  funext i
  obtain ⟨p, u, rfl⟩ : ∃ (p : Fin M) (u : Fin 1), i = ix2 p u := ⟨i 0, i 1, eq_ix2 i⟩
  simp only [Host.divf]
  rw [Cert.HostLayout.bcast_vec_col, Cert.HostLayout.bcast_scalar_mat, Cert.HostLayout.hostRowSum X _ hr' hr hu p]
  show Ideal.div (Ideal.ofBits .f32 0x00000000#32 + _) (Ideal.ofBits .f32 cw) = _
  rw [Ideal.ofBits_zero_f32, zero_add]
  rfl

/-- The array less the column of means broadcast along the rows: the deviations. -/
theorem hostCentered (cnt : EReal) :
    subf (F := Ideal) (φ := .f32) X (broadcastInDim ⟨2, ![M, N]⟩ ![0, 1] hb (meanCol X cnt)) = centered X cnt := by
  funext i
  obtain ⟨p, q, rfl⟩ : ∃ (p : Fin M) (q : Fin N), i = ix2 p q := ⟨i 0, i 1, eq_ix2 i⟩
  show X (ix2 p q) - broadcastInDim ⟨2, ![M, N]⟩ ![0, 1] hb (meanCol X cnt) (ix2 p q) = _
  rw [Cert.HostLayout.bcast_col_mat]
  rfl

/-- The host's row sums of the squared deviations, to a column, over the broadcast count: the column of variances. -/
theorem hostVarCol (hr : (⟨2, ![M, N]⟩ : Shape).Reduces [1] ⟨1, ![M]⟩) (cnt : EReal) :
    Host.divf (F := Ideal) (φ := .f32) (broadcastInDim ⟨2, ![M, 1]⟩ ![0] hv
          (Host.reduceAdd (F := Ideal) (φ := .f32) (mulf (F := Ideal) (φ := .f32) (centered X cnt) (centered X cnt)) (constant (F := Ideal) ⟨0, ![]⟩ .f32 0x00000000#32) hr' hu))
        (broadcastInDim ⟨2, ![M, 1]⟩ ![] h0 (constant (F := Ideal) ⟨0, ![]⟩ .f32 cw))
      = fun i => Ideal.div (sqSum X cnt (c0 i)) (Ideal.ofBits .f32 cw) := by
  funext i
  obtain ⟨p, u, rfl⟩ : ∃ (p : Fin M) (u : Fin 1), i = ix2 p u := ⟨i 0, i 1, eq_ix2 i⟩
  simp only [Host.divf]
  rw [Cert.HostLayout.bcast_vec_col, Cert.HostLayout.bcast_scalar_mat,
    Cert.HostLayout.hostRowSum (mulf (F := Ideal) (φ := .f32) (centered X cnt) (centered X cnt)) _ hr' hr hu p]
  show Ideal.div (Ideal.ofBits .f32 0x00000000#32 + _) (Ideal.ofBits .f32 cw) = _
  rw [Ideal.ofBits_zero_f32, zero_add]
  rfl

/-- The deviations over the broadcast square root of the variance column plus the broadcast epsilon. -/
theorem hostLnH :
    Host.divf (F := Ideal) (φ := .f32) (centered X (Ideal.ofBits .f32 cw))
        (broadcastInDim ⟨2, ![M, N]⟩ ![0, 1] hb
          (Host.sqrt (F := Ideal) (φ := .f32) (addf (F := Ideal) (φ := .f32)
            (fun i => Ideal.div (sqSum X (Ideal.ofBits .f32 cw) (c0 i)) (Ideal.ofBits .f32 cw))
            (broadcastInDim ⟨2, ![M, 1]⟩ ![] h0 (constant (F := Ideal) ⟨0, ![]⟩ .f32 ew)))))
      = lnH X (Ideal.ofBits .f32 cw) (Ideal.ofBits .f32 ew) := by
  funext i
  obtain ⟨p, q, rfl⟩ : ∃ (p : Fin M) (q : Fin N), i = ix2 p q := ⟨i 0, i 1, eq_ix2 i⟩
  simp only [Host.divf]
  rw [Cert.HostLayout.bcast_col_mat]
  simp only [Host.sqrt, addf]
  rw [Cert.HostLayout.bcast_scalar_mat]
  rfl

/-- Every row times the vector `g` laid along the rows, plus the vector `b` laid along the rows. -/
theorem hostScaleShift (Y : FVec Ideal ⟨2, ![M, N]⟩ .f32) (g b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (F := Ideal) (φ := .f32) (mulf Y (broadcastInDim ⟨2, ![M, N]⟩ ![0, 1] h2 (broadcastInDim ⟨2, ![1, N]⟩ ![1] h1 g)))
        (broadcastInDim ⟨2, ![M, N]⟩ ![0, 1] h2 (broadcastInDim ⟨2, ![1, N]⟩ ![1] h1 b))
      = scaleShift Y (row g) (row b) := by
  funext i
  obtain ⟨p, q, rfl⟩ : ∃ (p : Fin M) (q : Fin N), i = ix2 p q := ⟨i 0, i 1, eq_ix2 i⟩
  show Y (ix2 p q) * broadcastInDim ⟨2, ![M, N]⟩ ![0, 1] h2 (broadcastInDim ⟨2, ![1, N]⟩ ![1] h1 g) (ix2 p q)
      + broadcastInDim ⟨2, ![M, N]⟩ ![0, 1] h2 (broadcastInDim ⟨2, ![1, N]⟩ ![1] h1 b) (ix2 p q) = _
  rw [Cert.HostLayout.bcast_vec_mat, Cert.HostLayout.bcast_vec_mat]
  rfl

end Host

end Cert.LayerNorm

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«144377_j62234076119626_2_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.KLayer.lean ====
/-
  One kernel body as whole-array functions.

  A block of rows `X` (any number of rows, 2048 entries each) goes through a layer: row normalisation, gain and shift,
  the product with the weight block `wt` (input entry by output entry), the bias row, the activation in its logistic
  form.  Entry `(p, q)` of the result is entry `q` of the row function of Spec applied to row `p` of `X`: a layer never
  mixes rows.  The body's three stored expressions are these functions of the loaded blocks, two layers in a row.
-/
import proofs.«144377_j62234076119626_2_alg».proof.Proof.Spec
import proofs.«144377_j62234076119626_2_alg».proof.Proof.LibLayerNorm
import proofs.«144377_j62234076119626_2_alg».proof.Proof.LibBiasRow
import proofs.«144377_j62234076119626_2_alg».proof.Proof.Gen.KernelIdeal.Skeleton
import Idealize.ShloMosaic.Lib.Pipeline.Value

noncomputable section

open scoped BigOperators

namespace Cert.Mlp.K

open Idealize.ShloMosaic Idealize.ShloMosaic.ValueIdx Cert.Dense Cert.LayerNorm Cert.BiasRow Cert.Mlp
open Cert.KernelIdeal Cert.KernelIdeal.Gen

/-- Row `p` of an array. -/
def rowOf {M N : ℕ} (X : Mat M N) (p : Fin M) : Fin N → EReal := fun k => X (ix2 p k)
/-- A one-row array as a function of the column. -/
def ofRow {N : ℕ} (g : Mat 1 N) : Fin N → EReal := fun k => g (ix2 (0 : Fin 1) k)
/-- A weight block stored input entry by output entry, read output entry first. -/
def wOf {N : ℕ} (wt : Mat N N) : Fin N → Fin N → EReal := fun e d => wt (ix2 d e)

/-- A layer before its activation, on a block of rows. -/
def preM {M : ℕ} (X : Mat M 2048) (wt : Mat 2048 2048) (b g s : Mat 1 2048) : Mat M 2048 :=
  addRow (mm (scaleShift (lnK X cnt eps) g s) wt) b

/-- The argument of the logistic function. -/
def argM {M : ℕ} (Y : Mat M 2048) : Mat M 2048 := fun i => sK * cubic (Y i)

/-- A layer on a block of rows. -/
def layerM {M : ℕ} (X : Mat M 2048) (wt : Mat 2048 2048) (b g s : Mat 1 2048) : Mat M 2048 :=
  fun i => geluK (preM X wt b g s i)

theorem preM_apply {M : ℕ} (X : Mat M 2048) (wt : Mat 2048 2048) (b g s : Mat 1 2048) (p : Fin M) (q : Fin 2048) :
    preM X wt b g s (ix2 p q) = rPre (rowOf X p) (ofRow g) (ofRow s) (wOf wt) (ofRow b) q := rfl

theorem layerM_apply {M : ℕ} (X : Mat M 2048) (wt : Mat 2048 2048) (b g s : Mat 1 2048) (p : Fin M) (q : Fin 2048) :
    layerM X wt b g s (ix2 p q) = geluK (rPre (rowOf X p) (ofRow g) (ofRow s) (wOf wt) (ofRow b) q) := rfl

/-- The first stored expression: the first layer before its activation. -/
theorem pay1_eq (v0 : Vec Ideal S256x2048 .f32) (v18 v22 : Vec Ideal S1x2048 .f32) (v27 : Vec Ideal S2048x2048 .bf16)
    (v30 : Vec Ideal S1x2048 .f32) : k0_pay1 (F := Ideal) v0 v18 v22 v27 v30 = preM v0 v27 v30 v18 v22 := by
  unfold k0_pay1 preM
  simp only [shapeCast_self]
  rw [vecMeanCol, vecCentered, vecSqSum, vecVarCol, vecLnK, vecScaleShift]
  rw [matmul_zero_eq_mm _ rfl rfl rfl rfl rfl rfl, vecAddRow]
  rfl

/-- The second stored expression: the argument of the first layer's logistic function. -/
theorem pay2_eq (v0 : Vec Ideal S256x2048 .f32) (v18 v22 : Vec Ideal S1x2048 .f32) (v27 : Vec Ideal S2048x2048 .bf16)
    (v30 : Vec Ideal S1x2048 .f32) : k0_pay2 (F := Ideal) v0 v18 v22 v27 v30 = argM (preM v0 v27 v30 v18 v22) := by
  unfold k0_pay2
  simp only [pay1_eq]
  rfl

/-- The third stored expression: the second layer, from the first layer's value before its activation `Y` and the
    argument `A` of its logistic function. -/
theorem pay3_eq (Y A : FVec Ideal S256x2048 .f32) (v59 v63 : Vec Ideal S1x2048 .f32) (v68 : Vec Ideal S2048x2048 .bf16)
    (v71 : Vec Ideal S1x2048 .f32) :
    k0_pay3 (F := Ideal) Y A v59 v63 v68 v71
      = layerM (fun i => Y i * Ideal.logistic (A i)) v68 v71 v59 v63 := by
  unfold k0_pay3 layerM preM
  simp only [shapeCast_self]
  rw [show (mulf Y (logistic A) : FVec Ideal S256x2048 .f32) = (fun i => Y i * Ideal.logistic (A i)) from rfl]
  rw [vecMeanCol, vecCentered, vecSqSum, vecVarCol, vecLnK, vecScaleShift]
  rw [matmul_zero_eq_mm _ rfl rfl rfl rfl rfl rfl, vecAddRow]
  rfl

/-- The second call runs the same body: its stored expressions are the first call's. -/
theorem pay1_eq' (v0 : Vec Ideal S256x2048 .f32) (v18 v22 : Vec Ideal S1x2048 .f32) (v27 : Vec Ideal S2048x2048 .bf16)
    (v30 : Vec Ideal S1x2048 .f32) : k1_pay1 (F := Ideal) v0 v18 v22 v27 v30 = preM v0 v27 v30 v18 v22 :=
  pay1_eq v0 v18 v22 v27 v30

theorem pay2_eq' (v0 : Vec Ideal S256x2048 .f32) (v18 v22 : Vec Ideal S1x2048 .f32) (v27 : Vec Ideal S2048x2048 .bf16)
    (v30 : Vec Ideal S1x2048 .f32) : k1_pay2 (F := Ideal) v0 v18 v22 v27 v30 = argM (preM v0 v27 v30 v18 v22) :=
  pay2_eq v0 v18 v22 v27 v30

theorem pay3_eq' (Y A : FVec Ideal S256x2048 .f32) (v59 v63 : Vec Ideal S1x2048 .f32) (v68 : Vec Ideal S2048x2048 .bf16)
    (v71 : Vec Ideal S1x2048 .f32) :
    k1_pay3 (F := Ideal) Y A v59 v63 v68 v71
      = layerM (fun i => Y i * Ideal.logistic (A i)) v68 v71 v59 v63 :=
  pay3_eq Y A v59 v63 v68 v71

/-- Two layers in a row, on a block of rows or on the whole array. -/
def pairM {M : ℕ} (X : Mat M 2048) (wt0 : Mat 2048 2048) (b0 g0 s0 : Mat 1 2048) (wt1 : Mat 2048 2048) (b1 g1 s1 : Mat 1 2048) :
    Mat M 2048 :=
  layerM (layerM X wt0 b0 g0 s0) wt1 b1 g1 s1

/-- Two layers on a row. -/
def rowPair (wt0 : Mat 2048 2048) (b0 g0 s0 : Mat 1 2048) (wt1 : Mat 2048 2048) (b1 g1 s1 : Mat 1 2048)
    (r : Fin 2048 → EReal) : Fin 2048 → EReal :=
  fun q => geluK (rPre (fun k => geluK (rPre r (ofRow g0) (ofRow s0) (wOf wt0) (ofRow b0) k))
    (ofRow g1) (ofRow s1) (wOf wt1) (ofRow b1) q)

theorem pairM_apply {M : ℕ} (X : Mat M 2048) (wt0 : Mat 2048 2048) (b0 g0 s0 : Mat 1 2048) (wt1 : Mat 2048 2048)
    (b1 g1 s1 : Mat 1 2048) (p : Fin M) (q : Fin 2048) :
    pairM X wt0 b0 g0 s0 wt1 b1 g1 s1 (ix2 p q) = rowPair wt0 b0 g0 s0 wt1 b1 g1 s1 (rowOf X p) q := rfl

/-- A block of rows against the whole array: the entry depends on one row of the input only. -/
theorem pairM_at {M M' : ℕ} (X : Mat M 2048) (X' : Mat M' 2048) (wt0 : Mat 2048 2048) (b0 g0 s0 : Mat 1 2048)
    (wt1 : Mat 2048 2048) (b1 g1 s1 : Mat 1 2048)
    (j : (⟨2, ![M', 2048]⟩ : Shape).Idx) (i : (⟨2, ![M, 2048]⟩ : Shape).Idx) (h1 : (j 1).val = (i 1).val)
    (h : ∀ d : Fin 2048, X' (ix2 (c0 j) d) = X (ix2 (c0 i) d)) :
    pairM X' wt0 b0 g0 s0 wt1 b1 g1 s1 j = pairM X wt0 b0 g0 s0 wt1 b1 g1 s1 i := by
  obtain ⟨p', q', rfl⟩ : ∃ (p' : Fin M') (q' : Fin 2048), j = ix2 p' q' := ⟨j 0, j 1, eq_ix2 j⟩
  obtain ⟨p, q, rfl⟩ : ∃ (p : Fin M) (q : Fin 2048), i = ix2 p q := ⟨i 0, i 1, eq_ix2 i⟩
  have hq : q' = q := Fin.ext h1
  subst hq
  rw [pairM_apply, pairM_apply]
  have hr : rowOf X' p' = rowOf X p := funext h
  rw [hr]

end Cert.Mlp.K

end
-- ==== Proof.KRegion.lean ====
/-
  What one call leaves in its result array.

  The call runs its body once per block of 256 rows of the input array; the weight blocks and the one-row parameters are
  whole arrays at every point.  Point `t` reads rows `256 t … 256 t + 255` and writes the same rows of the result, and a
  layer never mixes rows, so the result array is the two layers applied to the whole input array: entry `(r, q)` is entry
  `q` of the two layers applied to row `r`.
-/
import proofs.«144377_j62234076119626_2_alg».proof.Proof.KLayer
import proofs.«144377_j62234076119626_2_alg».proof.Proof.Gen.KernelIdeal.Frame
import Idealize.ShloMosaic.Lib.Pipeline.Value

set_option maxRecDepth 16384

noncomputable section

open scoped BigOperators

namespace Cert.Mlp.K

open Idealize.ShloMosaic Idealize.ShloMosaic.TcCoe Idealize.ShloMosaic.ValueIdx Cert.Dense Cert.Mlp
open Idealize.SL.Sem
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's result block is two layers of its input block. -/
theorem out0_9_eq (x0 : Vec Ideal S256x2048 .f32) (x1 : Vec Ideal S2048x2048 .bf16) (x2 x3 x4 : Vec Ideal S1x2048 .f32)
    (x5 : Vec Ideal S2048x2048 .bf16) (x6 x7 x8 : Vec Ideal S1x2048 .f32) :
    out0_9 (F := Ideal) x0 x1 x2 x3 x4 x5 x6 x7 x8 = pairM x0 x1 x2 x3 x4 x5 x6 x7 x8 := by
  unfold out0_9
  rw [View.canon_unit_zero hz]
  simp only [View.ld_unit_zero (S := S256x2048) hz, View.ld_unit_zero (S := S1x2048) hz,
    View.ld_unit_zero (S := S2048x2048) hz]
  rw [pay1_eq, pay2_eq, pay3_eq]
  rfl

/-- The printed index maps over the grid: the input and the result move one block of rows per point, the parameters
    stay. -/
theorem idx_facts0 : ∀ t : Fin cfg0.N, win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## The first call -/

theorem iblk0_1 (c : Dev nD) (t : Fin cfg0.N) : iblk0 V c 1 t = V c main_call0_v4 := by
  have hf := idx_facts0 t
  funext y
  show V c main_call0_v4 (((cfg0.win 1).blk t).view.emb y) = V c main_call0_v4 y
  refine congrArg (V c main_call0_v4) ?_
  funext a; apply Fin.ext
  match a with
  | ⟨0, _⟩ => show win0_1.index t (0 : Fin 2) * 2048 + 1 * (y 0).val = (y 0).val; omega
  | ⟨1, _⟩ => show win0_1.index t (1 : Fin 2) * 2048 + 1 * (y 1).val = (y 1).val; omega

theorem iblk0_2 (c : Dev nD) (t : Fin cfg0.N) : iblk0 V c 2 t = V c main_call0_v7 := by
  have hf := idx_facts0 t
  funext y
  show V c main_call0_v7 (((cfg0.win 2).blk t).view.emb y) = V c main_call0_v7 y
  refine congrArg (V c main_call0_v7) ?_
  funext a; apply Fin.ext
  match a with
  | ⟨0, _⟩ => show win0_2.index t (0 : Fin 2) * 1 + 1 * (y 0).val = (y 0).val; omega
  | ⟨1, _⟩ => show win0_2.index t (1 : Fin 2) * 2048 + 1 * (y 1).val = (y 1).val; omega

theorem iblk0_3 (c : Dev nD) (t : Fin cfg0.N) : iblk0 V c 3 t = V c main_call0_v10 := by
  have hf := idx_facts0 t
  funext y
  show V c main_call0_v10 (((cfg0.win 3).blk t).view.emb y) = V c main_call0_v10 y
  refine congrArg (V c main_call0_v10) ?_
  funext a; apply Fin.ext
  match a with
  | ⟨0, _⟩ => show win0_3.index t (0 : Fin 2) * 1 + 1 * (y 0).val = (y 0).val; omega
  | ⟨1, _⟩ => show win0_3.index t (1 : Fin 2) * 2048 + 1 * (y 1).val = (y 1).val; omega

theorem iblk0_4 (c : Dev nD) (t : Fin cfg0.N) : iblk0 V c 4 t = V c main_call0_v13 := by
  have hf := idx_facts0 t
  funext y
  show V c main_call0_v13 (((cfg0.win 4).blk t).view.emb y) = V c main_call0_v13 y
  refine congrArg (V c main_call0_v13) ?_
  funext a; apply Fin.ext
  match a with
  | ⟨0, _⟩ => show win0_4.index t (0 : Fin 2) * 1 + 1 * (y 0).val = (y 0).val; omega
  | ⟨1, _⟩ => show win0_4.index t (1 : Fin 2) * 2048 + 1 * (y 1).val = (y 1).val; omega

theorem iblk0_5 (c : Dev nD) (t : Fin cfg0.N) : iblk0 V c 5 t = V c main_call0_v15 := by
  have hf := idx_facts0 t
  funext y
  show V c main_call0_v15 (((cfg0.win 5).blk t).view.emb y) = V c main_call0_v15 y
  refine congrArg (V c main_call0_v15) ?_
  funext a; apply Fin.ext
  match a with
  | ⟨0, _⟩ => show win0_5.index t (0 : Fin 2) * 2048 + 1 * (y 0).val = (y 0).val; omega
  | ⟨1, _⟩ => show win0_5.index t (1 : Fin 2) * 2048 + 1 * (y 1).val = (y 1).val; omega

theorem iblk0_6 (c : Dev nD) (t : Fin cfg0.N) : iblk0 V c 6 t = V c main_call0_v18 := by
  have hf := idx_facts0 t
  funext y
  show V c main_call0_v18 (((cfg0.win 6).blk t).view.emb y) = V c main_call0_v18 y
  refine congrArg (V c main_call0_v18) ?_
  funext a; apply Fin.ext
  match a with
  | ⟨0, _⟩ => show win0_6.index t (0 : Fin 2) * 1 + 1 * (y 0).val = (y 0).val; omega
  | ⟨1, _⟩ => show win0_6.index t (1 : Fin 2) * 2048 + 1 * (y 1).val = (y 1).val; omega

theorem iblk0_7 (c : Dev nD) (t : Fin cfg0.N) : iblk0 V c 7 t = V c main_call0_v21 := by
  have hf := idx_facts0 t
  funext y
  show V c main_call0_v21 (((cfg0.win 7).blk t).view.emb y) = V c main_call0_v21 y
  refine congrArg (V c main_call0_v21) ?_
  funext a; apply Fin.ext
  match a with
  | ⟨0, _⟩ => show win0_7.index t (0 : Fin 2) * 1 + 1 * (y 0).val = (y 0).val; omega
  | ⟨1, _⟩ => show win0_7.index t (1 : Fin 2) * 2048 + 1 * (y 1).val = (y 1).val; omega

theorem iblk0_8 (c : Dev nD) (t : Fin cfg0.N) : iblk0 V c 8 t = V c main_call0_v24 := by
  have hf := idx_facts0 t
  funext y
  show V c main_call0_v24 (((cfg0.win 8).blk t).view.emb y) = V c main_call0_v24 y
  refine congrArg (V c main_call0_v24) ?_
  funext a; apply Fin.ext
  match a with
  | ⟨0, _⟩ => show win0_8.index t (0 : Fin 2) * 1 + 1 * (y 0).val = (y 0).val; omega
  | ⟨1, _⟩ => show win0_8.index t (1 : Fin 2) * 2048 + 1 * (y 1).val = (y 1).val; omega

/-- What point `t` writes back is block `t` of the two layers applied to the whole input array. -/
theorem flushed0_eq (c : Dev nD) (t : Fin cfg0.N) :
    (dat0 V c).flushed 9 t = ((cfg0.win 9).blk t).view.read (Elt Ideal)
      (pairM (V c main_call0_v0) (V c main_call0_v4) (V c main_call0_v7) (V c main_call0_v10) (V c main_call0_v13)
        (V c main_call0_v15) (V c main_call0_v18) (V c main_call0_v21) (V c main_call0_v24)) := by
  show (cfg0.win 9).cut (grid0.coords t) ((dat0 V c).after 9 t) = _
  rw [after0_9, out0_9_eq, iblk0_1, iblk0_2, iblk0_3, iblk0_4, iblk0_5, iblk0_6, iblk0_7, iblk0_8]
  have hf := idx_facts0 t
  funext j
  show pairM (iblk0 V c 0 t) (V c main_call0_v4) (V c main_call0_v7) (V c main_call0_v10) (V c main_call0_v13)
        (V c main_call0_v15) (V c main_call0_v18) (V c main_call0_v21) (V c main_call0_v24) j
      = pairM (V c main_call0_v0) (V c main_call0_v4) (V c main_call0_v7) (V c main_call0_v10) (V c main_call0_v13)
        (V c main_call0_v15) (V c main_call0_v18) (V c main_call0_v21) (V c main_call0_v24) (((cfg0.win 9).blk t).view.emb j)
  refine pairM_at _ _ _ _ _ _ _ _ _ _ j _ ?_ ?_
  · show (j 1).val = win0_9.index t (1 : Fin 2) * 2048 + 1 * (j 1).val
    omega
  · intro d
    show V c main_call0_v0 (((cfg0.win 0).blk t).view.emb (ix2 (c0 j) d)) = V c main_call0_v0 (ix2 (c0 (((cfg0.win 9).blk t).view.emb j)) d)
    refine congrArg (V c main_call0_v0) ?_
    funext a; apply Fin.ext
    match a with
    | ⟨0, _⟩ => show win0_0.index t (0 : Fin 2) * 256 + 1 * (j 0).val = win0_9.index t (0 : Fin 2) * 256 + 1 * (j 0).val; omega
    | ⟨1, _⟩ => show win0_0.index t (1 : Fin 2) * 2048 + 1 * d.val = d.val; omega

/-- An index of the result array is in point `t`'s block iff each coordinate is in the block's range on its axis. -/
theorem mem_blk0 (t : Fin cfg0.N) (i : S16384x2048.Idx) :
    i ∈ ((cfg0.win 9).blk t).view.set ↔ ∀ a : Fin 2, win0_9.index t a * S256x2048.size a ≤ (i a).val ∧ (i a).val < win0_9.index t a * S256x2048.size a + S256x2048.size a := by
  show i ∈ ((View.whole main_call0_v25).slice (win0_9.rect t)).set ↔ _
  rw [View.set_slice_whole, Rect.mem_set_unit]
  exact Iff.rfl

/-- Row `r` of the result is written by point `r / 256`: the blocks cover the array. -/
theorem cover0 (i : S16384x2048.Idx) :
    ∃ t : Fin cfg0.N, (cfg0.win 9).flush t = true ∧ i ∈ ((cfg0.win 9).blk t).view.set := by
  have hi0 : (i 0).val < 16384 := (i 0).isLt
  have hi1 : (i 1).val < 2048 := (i 1).isLt
  have hN : cfg0.N = 64 := N_0
  refine ⟨⟨(i 0).val / 256, by rw [hN]; omega⟩, flush0_9 _, ?_⟩
  rw [mem_blk0]
  have hf := idx_facts0 ⟨(i 0).val / 256, by rw [hN]; omega⟩
  have ht : (⟨(i 0).val / 256, by rw [hN]; omega⟩ : Fin cfg0.N).val = (i 0).val / 256 := rfl
  intro a
  match a with
  | ⟨0, _⟩ =>
    show win0_9.index _ (0 : Fin 2) * 256 ≤ (i 0).val ∧ (i 0).val < win0_9.index _ (0 : Fin 2) * 256 + 256
    omega
  | ⟨1, _⟩ =>
    show win0_9.index _ (1 : Fin 2) * 2048 ≤ (i 1).val ∧ (i 1).val < win0_9.index _ (1 : Fin 2) * 2048 + 2048
    omega

/-- The first call's result array: two layers of its input array, row by row. -/
theorem final0 (c : Dev nD) :
    (dat0 V c).arrAt 9 cfg0.N
      = pairM (V c main_call0_v0) (V c main_call0_v4) (V c main_call0_v7) (V c main_call0_v10) (V c main_call0_v13)
        (V c main_call0_v15) (V c main_call0_v18) (V c main_call0_v21) (V c main_call0_v24) :=
  (dat0 V c).arrAt_eq_of_cover 9 _ (fun t _ => flushed0_eq V c t) cover0

/-! ## The second call: the same body over its own windows -/

/-- The body's result block is two layers of its input block. -/
theorem out1_9_eq (x0 : Vec Ideal S256x2048 .f32) (x1 : Vec Ideal S2048x2048 .bf16) (x2 x3 x4 : Vec Ideal S1x2048 .f32)
    (x5 : Vec Ideal S2048x2048 .bf16) (x6 x7 x8 : Vec Ideal S1x2048 .f32) :
    out1_9 (F := Ideal) x0 x1 x2 x3 x4 x5 x6 x7 x8 = pairM x0 x1 x2 x3 x4 x5 x6 x7 x8 := by
  unfold out1_9
  rw [View.canon_unit_zero hz]
  simp only [View.ld_unit_zero (S := S256x2048) hz, View.ld_unit_zero (S := S1x2048) hz,
    View.ld_unit_zero (S := S2048x2048) hz]
  rw [pay1_eq', pay2_eq', pay3_eq']
  rfl

/-- The printed index maps over the grid: the input and the result move one block of rows per point, the parameters
    stay. -/
theorem idx_facts1 : ∀ t : Fin cfg1.N, win1_0.index t (0 : Fin 2) = t.val ∧ win1_0.index t (1 : Fin 2) = 0
    ∧ win1_9.index t (0 : Fin 2) = t.val ∧ win1_9.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

theorem iblk1_1 (c : Dev nD) (t : Fin cfg1.N) : iblk1 V c 1 t = V c main_call0_v27 := by
  have hf := idx_facts1 t
  funext y
  show V c main_call0_v27 (((cfg1.win 1).blk t).view.emb y) = V c main_call0_v27 y
  refine congrArg (V c main_call0_v27) ?_
  funext a; apply Fin.ext
  match a with
  | ⟨0, _⟩ => show win1_1.index t (0 : Fin 2) * 2048 + 1 * (y 0).val = (y 0).val; omega
  | ⟨1, _⟩ => show win1_1.index t (1 : Fin 2) * 2048 + 1 * (y 1).val = (y 1).val; omega

theorem iblk1_2 (c : Dev nD) (t : Fin cfg1.N) : iblk1 V c 2 t = V c main_call0_v30 := by
  have hf := idx_facts1 t
  funext y
  show V c main_call0_v30 (((cfg1.win 2).blk t).view.emb y) = V c main_call0_v30 y
  refine congrArg (V c main_call0_v30) ?_
  funext a; apply Fin.ext
  match a with
  | ⟨0, _⟩ => show win1_2.index t (0 : Fin 2) * 1 + 1 * (y 0).val = (y 0).val; omega
  | ⟨1, _⟩ => show win1_2.index t (1 : Fin 2) * 2048 + 1 * (y 1).val = (y 1).val; omega

theorem iblk1_3 (c : Dev nD) (t : Fin cfg1.N) : iblk1 V c 3 t = V c main_call0_v33 := by
  have hf := idx_facts1 t
  funext y
  show V c main_call0_v33 (((cfg1.win 3).blk t).view.emb y) = V c main_call0_v33 y
  refine congrArg (V c main_call0_v33) ?_
  funext a; apply Fin.ext
  match a with
  | ⟨0, _⟩ => show win1_3.index t (0 : Fin 2) * 1 + 1 * (y 0).val = (y 0).val; omega
  | ⟨1, _⟩ => show win1_3.index t (1 : Fin 2) * 2048 + 1 * (y 1).val = (y 1).val; omega

theorem iblk1_4 (c : Dev nD) (t : Fin cfg1.N) : iblk1 V c 4 t = V c main_call0_v36 := by
  have hf := idx_facts1 t
  funext y
  show V c main_call0_v36 (((cfg1.win 4).blk t).view.emb y) = V c main_call0_v36 y
  refine congrArg (V c main_call0_v36) ?_
  funext a; apply Fin.ext
  match a with
  | ⟨0, _⟩ => show win1_4.index t (0 : Fin 2) * 1 + 1 * (y 0).val = (y 0).val; omega
  | ⟨1, _⟩ => show win1_4.index t (1 : Fin 2) * 2048 + 1 * (y 1).val = (y 1).val; omega

theorem iblk1_5 (c : Dev nD) (t : Fin cfg1.N) : iblk1 V c 5 t = V c main_call0_v38 := by
  have hf := idx_facts1 t
  funext y
  show V c main_call0_v38 (((cfg1.win 5).blk t).view.emb y) = V c main_call0_v38 y
  refine congrArg (V c main_call0_v38) ?_
  funext a; apply Fin.ext
  match a with
  | ⟨0, _⟩ => show win1_5.index t (0 : Fin 2) * 2048 + 1 * (y 0).val = (y 0).val; omega
  | ⟨1, _⟩ => show win1_5.index t (1 : Fin 2) * 2048 + 1 * (y 1).val = (y 1).val; omega

theorem iblk1_6 (c : Dev nD) (t : Fin cfg1.N) : iblk1 V c 6 t = V c main_call0_v41 := by
  have hf := idx_facts1 t
  funext y
  show V c main_call0_v41 (((cfg1.win 6).blk t).view.emb y) = V c main_call0_v41 y
  refine congrArg (V c main_call0_v41) ?_
  funext a; apply Fin.ext
  match a with
  | ⟨0, _⟩ => show win1_6.index t (0 : Fin 2) * 1 + 1 * (y 0).val = (y 0).val; omega
  | ⟨1, _⟩ => show win1_6.index t (1 : Fin 2) * 2048 + 1 * (y 1).val = (y 1).val; omega

theorem iblk1_7 (c : Dev nD) (t : Fin cfg1.N) : iblk1 V c 7 t = V c main_call0_v44 := by
  have hf := idx_facts1 t
  funext y
  show V c main_call0_v44 (((cfg1.win 7).blk t).view.emb y) = V c main_call0_v44 y
  refine congrArg (V c main_call0_v44) ?_
  funext a; apply Fin.ext
  match a with
  | ⟨0, _⟩ => show win1_7.index t (0 : Fin 2) * 1 + 1 * (y 0).val = (y 0).val; omega
  | ⟨1, _⟩ => show win1_7.index t (1 : Fin 2) * 2048 + 1 * (y 1).val = (y 1).val; omega

theorem iblk1_8 (c : Dev nD) (t : Fin cfg1.N) : iblk1 V c 8 t = V c main_call0_v47 := by
  have hf := idx_facts1 t
  funext y
  show V c main_call0_v47 (((cfg1.win 8).blk t).view.emb y) = V c main_call0_v47 y
  refine congrArg (V c main_call0_v47) ?_
  funext a; apply Fin.ext
  match a with
  | ⟨0, _⟩ => show win1_8.index t (0 : Fin 2) * 1 + 1 * (y 0).val = (y 0).val; omega
  | ⟨1, _⟩ => show win1_8.index t (1 : Fin 2) * 2048 + 1 * (y 1).val = (y 1).val; omega

/-- What point `t` writes back is block `t` of the two layers applied to the whole input array. -/
theorem flushed1_eq (c : Dev nD) (t : Fin cfg1.N) :
    (dat1 V c).flushed 9 t = ((cfg1.win 9).blk t).view.read (Elt Ideal)
      (pairM (V c main_call0_v25) (V c main_call0_v27) (V c main_call0_v30) (V c main_call0_v33) (V c main_call0_v36)
        (V c main_call0_v38) (V c main_call0_v41) (V c main_call0_v44) (V c main_call0_v47)) := by
  show (cfg1.win 9).cut (grid1.coords t) ((dat1 V c).after 9 t) = _
  rw [after1_9, out1_9_eq, iblk1_1, iblk1_2, iblk1_3, iblk1_4, iblk1_5, iblk1_6, iblk1_7, iblk1_8]
  have hf := idx_facts1 t
  funext j
  show pairM (iblk1 V c 0 t) (V c main_call0_v27) (V c main_call0_v30) (V c main_call0_v33) (V c main_call0_v36)
        (V c main_call0_v38) (V c main_call0_v41) (V c main_call0_v44) (V c main_call0_v47) j
      = pairM (V c main_call0_v25) (V c main_call0_v27) (V c main_call0_v30) (V c main_call0_v33) (V c main_call0_v36)
        (V c main_call0_v38) (V c main_call0_v41) (V c main_call0_v44) (V c main_call0_v47) (((cfg1.win 9).blk t).view.emb j)
  refine pairM_at _ _ _ _ _ _ _ _ _ _ j _ ?_ ?_
  · show (j 1).val = win1_9.index t (1 : Fin 2) * 2048 + 1 * (j 1).val
    omega
  · intro d
    show V c main_call0_v25 (((cfg1.win 0).blk t).view.emb (ix2 (c0 j) d)) = V c main_call0_v25 (ix2 (c0 (((cfg1.win 9).blk t).view.emb j)) d)
    refine congrArg (V c main_call0_v25) ?_
    funext a; apply Fin.ext
    match a with
    | ⟨0, _⟩ => show win1_0.index t (0 : Fin 2) * 256 + 1 * (j 0).val = win1_9.index t (0 : Fin 2) * 256 + 1 * (j 0).val; omega
    | ⟨1, _⟩ => show win1_0.index t (1 : Fin 2) * 2048 + 1 * d.val = d.val; omega

/-- An index of the result array is in point `t`'s block iff each coordinate is in the block's range on its axis. -/
theorem mem_blk1 (t : Fin cfg1.N) (i : S16384x2048.Idx) :
    i ∈ ((cfg1.win 9).blk t).view.set ↔ ∀ a : Fin 2, win1_9.index t a * S256x2048.size a ≤ (i a).val ∧ (i a).val < win1_9.index t a * S256x2048.size a + S256x2048.size a := by
  show i ∈ ((View.whole main_call0_v48).slice (win1_9.rect t)).set ↔ _
  rw [View.set_slice_whole, Rect.mem_set_unit]
  exact Iff.rfl

/-- Row `r` of the result is written by point `r / 256`: the blocks cover the array. -/
theorem cover1 (i : S16384x2048.Idx) :
    ∃ t : Fin cfg1.N, (cfg1.win 9).flush t = true ∧ i ∈ ((cfg1.win 9).blk t).view.set := by
  have hi0 : (i 0).val < 16384 := (i 0).isLt
  have hi1 : (i 1).val < 2048 := (i 1).isLt
  have hN : cfg1.N = 64 := N_1
  refine ⟨⟨(i 0).val / 256, by rw [hN]; omega⟩, flush1_9 _, ?_⟩
  rw [mem_blk1]
  have hf := idx_facts1 ⟨(i 0).val / 256, by rw [hN]; omega⟩
  have ht : (⟨(i 0).val / 256, by rw [hN]; omega⟩ : Fin cfg1.N).val = (i 0).val / 256 := rfl
  intro a
  match a with
  | ⟨0, _⟩ =>
    show win1_9.index _ (0 : Fin 2) * 256 ≤ (i 0).val ∧ (i 0).val < win1_9.index _ (0 : Fin 2) * 256 + 256
    omega
  | ⟨1, _⟩ =>
    show win1_9.index _ (1 : Fin 2) * 2048 ≤ (i 1).val ∧ (i 1).val < win1_9.index _ (1 : Fin 2) * 2048 + 2048
    omega

/-- The second call's result array: two layers of its input array, row by row. -/
theorem final1 (c : Dev nD) :
    (dat1 V c).arrAt 9 cfg1.N
      = pairM (V c main_call0_v25) (V c main_call0_v27) (V c main_call0_v30) (V c main_call0_v33) (V c main_call0_v36)
        (V c main_call0_v38) (V c main_call0_v41) (V c main_call0_v44) (V c main_call0_v47) :=
  (dat1 V c).arrAt_eq_of_cover 9 _ (fun t _ => flushed1_eq V c t) cover1

end Cert.Mlp.K

end
-- ==== Proof.LibHostRank3.lean ====
/-
  Host operations on a rank-3 array `[a, b, c]` whose last axis is the feature axis, read at an index; any extents.

  The keepdims forms of `broadcast_in_dim`: an `[a, b]` array to `[a, b, 1]` (`bcast_mat_col`), an `[a, b, 1]` array
  along the last axis to `[a, b, c]` (`bcast_col_full`), a vector `[c]` to `[1, 1, c]` and on to `[a, b, c]`
  (`bcast_vec_full`: what adding a per-feature parameter to every row lowers to).  Row `l` of a stacked `[m, n]` array and
  slab `l` of a stacked `[m, a, b]` array cut out with a leading axis of extent one (`slice_row_apply`,
  `slice_slab_apply`).  On the extended reals: the host's sum along the last axis at `(i, j)` is the initial value plus
  the sum of row `(i, j)` (`hostRowSum3`), and the host's contraction of the last axis with the second axis of an
  `[n, c]` matrix (dimension numbers `[2] × [1]`, no batch axis: `einsum('bsd,ed->bse')`) at `(i, j, e)` is
  `∑ d, l (i, j, d) · r (e, d)` (`hostDot3`).  It builds on LibRowBlocks.lean's `contr_sum`.
-/
import proofs.«144377_j62234076119626_2_alg».proof.Proof.LibRowBlocks
import Idealize.ShloMosaic.PureOps.Ideal.Laws
import Idealize.ShloMosaic.Lib.ValueIdx
import Idealize.ShloMosaic.Lib.Pipeline.Value
import Idealize.ShloMosaic.Lib.IdealHost

noncomputable section

open scoped BigOperators

namespace Cert.HostRank3

open Idealize.ShloMosaic Idealize.ShloMosaic.ValueIdx

/-! ## Layout operations of a rank-3 array at an index -/

section Layout

variable {α : Type}

/-- An [a, b] array broadcast to [a, b, 1] reads, at (i, j, u), the array at (i, j). -/
theorem bcast_mat_col {a b : ℕ} (x : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h x (ix3 i j u) = x (ix2 i j) :=
  broadcastInDim_apply ![0, 1] h x (ix3 i j u) (ix2 i j) fun ax => by
    match ax with
    | ⟨0, _⟩ =>
      show i.val = if a = 1 then 0 else i.val
      split
      · have := i.isLt; omega
      · rfl
    | ⟨1, _⟩ =>
      show j.val = if b = 1 then 0 else j.val
      split
      · have := j.isLt; omega
      · rfl

/-- An [a, b, 1] array broadcast along the last axis to [a, b, c] reads, at (i, j, e), the array at (i, j, 0). -/
theorem bcast_col_full {a b c : ℕ} (x : (⟨3, ![a, b, 1]⟩ : Shape).Idx → α)
    (h : (⟨3, ![a, b, 1]⟩ : Shape).BroadcastsInDim ⟨3, ![a, b, c]⟩ ![0, 1, 2]) (i : Fin a) (j : Fin b) (e : Fin c) :
    broadcastInDim ⟨3, ![a, b, c]⟩ ![0, 1, 2] h x (ix3 i j e) = x (ix3 i j (0 : Fin 1)) :=
  broadcastInDim_apply ![0, 1, 2] h x (ix3 i j e) (ix3 i j (0 : Fin 1)) fun ax => by
    match ax with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => rfl

/-- A vector [c] laid along the last axis of [1, 1, c] and that broadcast to [a, b, c] reads, at (i, j, e),
    the vector at e. -/
theorem bcast_vec_full {a b c : ℕ} (x : (⟨1, ![c]⟩ : Shape).Idx → α)
    (h1 : (⟨1, ![c]⟩ : Shape).BroadcastsInDim ⟨3, ![1, 1, c]⟩ ![2])
    (h2 : (⟨3, ![1, 1, c]⟩ : Shape).BroadcastsInDim ⟨3, ![a, b, c]⟩ ![0, 1, 2]) (i : Fin a) (j : Fin b) (e : Fin c) :
    broadcastInDim ⟨3, ![a, b, c]⟩ ![0, 1, 2] h2 (broadcastInDim ⟨3, ![1, 1, c]⟩ ![2] h1 x) (ix3 i j e) = x (ix1 e) := by
  rw [broadcastInDim_apply ![0, 1, 2] h2 _ (ix3 i j e) (ix3 (0 : Fin 1) (0 : Fin 1) e) (fun ax => by
        match ax with
        | ⟨0, _⟩ => rfl
        | ⟨1, _⟩ => rfl
        | ⟨2, _⟩ =>
          show e.val = if c = 1 then 0 else e.val
          split
          · have := e.isLt; omega
          · rfl),
    broadcastInDim_apply ![2] h1 x (ix3 (0 : Fin 1) (0 : Fin 1) e) (ix1 e) (fun ax => by
        match ax with
        | ⟨0, _⟩ =>
          show e.val = if c = 1 then 0 else e.val
          split
          · have := e.isLt; omega
          · rfl)]

/-- Row l of an [m, n] array cut out as a [1, n] block reads, at (u, k), the array at (l, k). -/
theorem slice_row_apply {m n : ℕ} (l : ℕ) (hl : l < m) (x : (⟨2, ![m, n]⟩ : Shape).Idx → α)
    (h : (⟨2, ![m, n]⟩ : Shape).Slices ![l, 0] ⟨2, ![1, n]⟩) (u : Fin 1) (k : Fin n) :
    extractStridedSlice ⟨2, ![1, n]⟩ ![l, 0] x h (ix2 u k) = x (ix2 (⟨l, hl⟩ : Fin m) k) :=
  extractStridedSlice_apply ![l, 0] x h (ix2 u k) (ix2 (⟨l, hl⟩ : Fin m) k) fun ax => by
    match ax with
    | ⟨0, _⟩ =>
      show l = l + u.val
      omega
    | ⟨1, _⟩ =>
      show k.val = 0 + k.val
      omega

/-- Slab l of an [m, a, b] array cut out as a [1, a, b] block reads, at (u, p, q), the array at (l, p, q). -/
theorem slice_slab_apply {m a b : ℕ} (l : ℕ) (hl : l < m) (x : (⟨3, ![m, a, b]⟩ : Shape).Idx → α)
    (h : (⟨3, ![m, a, b]⟩ : Shape).Slices ![l, 0, 0] ⟨3, ![1, a, b]⟩) (u : Fin 1) (p : Fin a) (q : Fin b) :
    extractStridedSlice ⟨3, ![1, a, b]⟩ ![l, 0, 0] x h (ix3 u p q) = x (ix3 (⟨l, hl⟩ : Fin m) p q) :=
  extractStridedSlice_apply ![l, 0, 0] x h (ix3 u p q) (ix3 (⟨l, hl⟩ : Fin m) p q) fun ax => by
    match ax with
    | ⟨0, _⟩ =>
      show l = l + u.val
      omega
    | ⟨1, _⟩ =>
      show p.val = 0 + p.val
      omega
    | ⟨2, _⟩ =>
      show q.val = 0 + q.val
      omega

end Layout

/-! ## The sum along the last axis and the contraction of the last axis, at an index -/

/-- The host's sum of an [a, b, c] array along its last axis reads, at (i, j), the initial value plus the sum of
    the row (i, j). -/
theorem hostRowSum3 {a b c : ℕ} (x : FVec Ideal ⟨3, ![a, b, c]⟩ .f32) (init : FVec Ideal ⟨0, ![]⟩ .f32)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (i : Fin a) (j : Fin b) :
    Host.reduceAdd x init h' hu (ix2 i j) = init (Shape.Idx.first hu) + ∑ k : Fin c, x (ix3 i j k) := by
  refine (Ideal.hostReduceAdd_single h' h x (init (Shape.Idx.first hu)) (ix2 i j)).trans ?_
  refine congrArg (init (Shape.Idx.first hu) + ·) (Finset.sum_congr rfl fun k _ => congrArg x (funext fun ax => Fin.ext ?_))
  match ax with
  | ⟨0, _⟩ => rfl
  | ⟨1, _⟩ => rfl
  | ⟨2, _⟩ => rfl

/-- The host's contraction of the last axis of an [a, b, c] array with the second axis of an [n, c] array (no batch
    axis) reads, at (i, j, e), the sum over d of l (i, j, d) · r (e, d). -/
theorem hostDot3 {a b c n : ℕ} (D : DotDims ⟨3, ![a, b, c]⟩ ⟨2, ![n, c]⟩ ⟨3, ![a, b, n]⟩)
    (h1 : D.lhsContracting = [2]) (h2 : D.rhsContracting = [1]) (h3 : D.lhsNonContracting = [0, 1])
    (h4 : D.rhsNonContracting = [0]) (h5 : D.lhsBatch = []) (h6 : D.rhsBatch = [])
    (prec : Option ContractPrecision) (l : FVec Ideal ⟨3, ![a, b, c]⟩ .f32) (r : FVec Ideal ⟨2, ![n, c]⟩ .f32)
    (i : Fin a) (j : Fin b) (e : Fin n) :
    Host.dotGeneral (F := Ideal) D prec l r (ix3 i j e) = ∑ d : Fin c, l (ix3 i j d) * r (ix2 e d) := by
  refine (Ideal.dotGeneral_apply D prec .single l r (ix3 i j e)).trans ?_
  obtain ⟨lc, rc, ln, rn, lb, rb, wf⟩ := D
  dsimp only at h1 h2 h3 h4 h5 h6
  subst h1 h2 h3 h4 h5 h6
  generalize hD : (⟨[2], [1], [0, 1], [0], [], [], wf⟩ : DotDims ⟨3, ![a, b, c]⟩ ⟨2, ![n, c]⟩ ⟨3, ![a, b, n]⟩) = D
  have hrank : D.contr.rank = 1 := by subst hD; rfl
  have hs : D.contr.size ⟨0, by omega⟩ = c := by subst hD; rfl
  have hlc : D.lhsContracting = [2] := by subst hD; rfl
  have hrc : D.rhsContracting = [1] := by subst hD; rfl
  refine Cert.RowBlocks.contr_sum D c hrank hs l r (ix3 i j e) (fun d => ix3 i j d) (fun d => ix2 e d) (fun k => ?_) (fun k => ?_)
  · have hk := contrEquiv1_symm_val D c hrank hs k
    exact funext fun ax => Fin.ext (by
      match ax with
      | ⟨0, _⟩ =>
        subst hD
        rfl
      | ⟨1, _⟩ =>
        subst hD
        rfl
      | ⟨2, _⟩ => exact (D.lhsIdx_val_of_single hlc _ _).trans hk)
  · have hk := contrEquiv1_symm_val D c hrank hs k
    exact funext fun ax => Fin.ext (by
      match ax with
      | ⟨0, _⟩ =>
        subst hD
        rfl
      | ⟨1, _⟩ => exact (D.rhsIdx_val_of_single hrc _ _).trans hk)

end Cert.HostRank3

end
-- ==== Proof.LibTypedRef.lean ====
/-
  Typed references: a value carried to a buffer's own type and back is the value.

  A host operation of a called function is stated over typed references: a reference together with the equation that
  its buffer's type is the value's type. The operation's function is conjugated by the transport along that equation
  (`toBuf` into the buffer's type, `ofBuf` out of it). Reading a chain of such operations back therefore leaves
  pairs `ofBuf (toBuf v)` around every intermediate value; each pair is the identity.
-/
import Idealize.ShloMosaic.Lib.StableHlo

namespace Cert.TypedRef

open Idealize.ShloMosaic Idealize.ShloMosaic.StableHlo

/-- Carrying a value to the buffer's type and back gives the value. -/
theorem ofBuf_toBuf {sig : RefSig} {T : BufTy} {Val : EltTy → Type} (x : TRef sig T) (v : T.Contents Val) :
    x.ofBuf (x.toBuf v) = v := by
  obtain ⟨r, h, a, b⟩ := x
  subst h
  rfl

/-- Carrying a buffer's contents to the value's type and back gives the contents. -/
theorem toBuf_ofBuf {sig : RefSig} {T : BufTy} {Val : EltTy → Type} (x : TRef sig T) (v : x.ref.ty.Contents Val) :
    x.toBuf (x.ofBuf v) = v := by
  obtain ⟨r, h, a, b⟩ := x
  subst h
  rfl

end Cert.TypedRef
-- ==== Proof.KEntry.lean ====
/-
  What the two calls find in their operands.

  The host operations before the first call reshape the input `[8, 2048, 2048]` to `[16384, 2048]` (row `i · 2048 + j`
  is row `(i, j)`), transpose every slab of the stacked weights, and cut slab `l` of the transposed weights and row `l`
  of the stacked biases, gains and shifts for layers 0 and 1; those between the calls do the same for layers 2 and 3.
  So layer `l`'s weight block at `(d, e)` is the stacked weights at `(l, e, d)`, and its one-row parameters at `(0, k)`
  are the stacked parameters at `(l, k)`.  The second call's input is the first call's result, and the program's result
  is the second call's, reshaped back.
-/
import proofs.«144377_j62234076119626_2_alg».proof.Proof.KLayer
import proofs.«144377_j62234076119626_2_alg».proof.Proof.LibHostRank3
import proofs.«144377_j62234076119626_2_alg».proof.Proof.LibTypedRef
import proofs.«144377_j62234076119626_2_alg».proof.Proof.Gen.KernelIdeal.Frame
import Idealize.ShloMosaic.Lib.StableHlo.Run
import Idealize.ShloMosaic.Lib.ValueLayout

set_option maxRecDepth 16384

noncomputable section

namespace Cert.Mlp.K

open Idealize.ShloMosaic Idealize.ShloMosaic.TcCoe Idealize.ShloMosaic.ValueIdx Idealize.SL.Sem
open Cert.Dense Cert.Mlp Cert.TypedRef Cert.HostRank3
open Cert.KernelIdeal Cert.KernelIdeal.Gen

/-! ## The cuts at an index -/

/-- Row `l` of a stacked parameter array, cut out, flattened and laid out as one row. -/
theorem rowRead (P : FVec Ideal S4x2048 .f32) (l : ℕ) (hl : l < 4) (h : S4x2048.Slices ![l, 0] S1x2048) (k : Fin 2048) :
    shapeCast S1x2048 (shapeCast S2048 (extractStridedSlice S1x2048 ![l, 0] P h) shapeCasts_S1x2048_S2048)
        shapeCasts_S2048_S1x2048 (ix2 (0 : Fin 1) k) = P (ix2 (⟨l, hl⟩ : Fin 4) k) := by
  rw [shapeCast_a_1a_apply, shapeCast_1a_a_apply, slice_row_apply l hl]

/-- Slab `l` of the transposed weights at `(d, e)` is the stacked weights at `(l, e, d)`. -/
theorem slabRead (W : FVec Ideal S4x2048x2048 .f32) (l : ℕ) (hl : l < 4)
    (h : S4x2048x2048.Slices ![l, 0, 0] S1x2048x2048) (d e : Fin 2048) :
    (shapeCast S2048x2048 (extractStridedSlice S1x2048x2048 ![l, 0, 0]
        (truncf (F := Ideal) .bf16 (transpose S4x2048x2048 [0, 2, 1] W transposes_S4x2048x2048_S4x2048x2048_0_2_1) bitsLt_bf16_f32) h)
      shapeCasts_S1x2048x2048_S2048x2048 : FVec Ideal S2048x2048 .bf16) (ix2 d e) = W (ix3 (⟨l, hl⟩ : Fin 4) e d) := by
  rw [shapeCast_1ab_ab_apply, slice_slab_apply l hl]
  exact transpose_ix3_021_apply W _ _ d e

variable (m : (ℓ : Loc nD τ sig) → Buf (Elt Ideal) ℓ) (ρ : Dev nD → PrngReg)

/-! ## What the first call leaves untouched -/

theorem W2_v2 (c : Dev nD) : (W2 m ρ c (Proc.devRef .tc main_call0_v2) : FVec Ideal S4x2048x2048 .bf16)
    = truncf (F := Ideal) .bf16 (transpose S4x2048x2048 [0, 2, 1] (m ((c : Thread nD τ).loc main_arg1)) transposes_S4x2048x2048_S4x2048x2048_0_2_1) bitsLt_bf16_f32 := by
  rw [W2_of_ne m ρ c main_call0_v2 (by decide)]
  show StableHlo.after hostOps0 (W0 m ρ c) (Proc.devRef .tc main_call0_v2) = _
  after_results
  simp only [ofBuf_toBuf]
  rfl

theorem W2_arg2 (c : Dev nD) : W2 m ρ c (Proc.devRef .tc main_arg2) = (m ((c : Thread nD τ).loc main_arg2)) := by
  rw [W2_of_ne m ρ c main_arg2 (by decide)]
  show StableHlo.after hostOps0 (W0 m ρ c) (Proc.devRef .tc main_arg2) = _
  after_results

theorem W2_arg3 (c : Dev nD) : W2 m ρ c (Proc.devRef .tc main_arg3) = (m ((c : Thread nD τ).loc main_arg3)) := by
  rw [W2_of_ne m ρ c main_arg3 (by decide)]
  show StableHlo.after hostOps0 (W0 m ρ c) (Proc.devRef .tc main_arg3) = _
  after_results

theorem W2_arg4 (c : Dev nD) : W2 m ρ c (Proc.devRef .tc main_arg4) = (m ((c : Thread nD τ).loc main_arg4)) := by
  rw [W2_of_ne m ρ c main_arg4 (by decide)]
  show StableHlo.after hostOps0 (W0 m ρ c) (Proc.devRef .tc main_arg4) = _
  after_results

/-! ## The parameters of each layer -/

theorem V1_wt0 (c : Dev nD) : (V1 m ρ c main_call0_v4 : FVec Ideal S2048x2048 .bf16)
    = shapeCast S2048x2048 (extractStridedSlice S1x2048x2048 ![0, 0, 0] (truncf (F := Ideal) .bf16 (transpose S4x2048x2048 [0, 2, 1] (m ((c : Thread nD τ).loc main_arg1)) transposes_S4x2048x2048_S4x2048x2048_0_2_1) bitsLt_bf16_f32) slices_S4x2048x2048_S1x2048x2048_0_0_0) shapeCasts_S1x2048x2048_S2048x2048 := by
  show StableHlo.after hostOps0 (W0 m ρ c) (Proc.devRef .tc main_call0_v4) = _
  after_results
  simp only [ofBuf_toBuf]
  rfl

/-- Layer 0's weight block, read output entry first, is slab 0 of the stacked weights. -/
theorem wOf_0 (c : Dev nD) : wOf (V1 m ρ c main_call0_v4) = fun e d => (m ((c : Thread nD τ).loc main_arg1)) (ix3 (0 : Fin 4) e d) := by
  funext e d
  show (V1 m ρ c main_call0_v4 : FVec Ideal S2048x2048 .bf16) (ix2 d e) = _
  rw [V1_wt0]
  exact slabRead _ 0 (by omega) _ d e

theorem V1_b0 (c : Dev nD) : (V1 m ρ c main_call0_v7 : FVec Ideal S1x2048 .f32)
    = shapeCast S1x2048 (shapeCast S2048 (extractStridedSlice S1x2048 ![0, 0] (m ((c : Thread nD τ).loc main_arg2)) slices_S4x2048_S1x2048_0_0) shapeCasts_S1x2048_S2048) shapeCasts_S2048_S1x2048 := by
  show StableHlo.after hostOps0 (W0 m ρ c) (Proc.devRef .tc main_call0_v7) = _
  after_results
  simp only [ofBuf_toBuf]
  rfl

theorem ofRow_b0 (c : Dev nD) : ofRow (V1 m ρ c main_call0_v7) = fun k => (m ((c : Thread nD τ).loc main_arg2)) (ix2 (0 : Fin 4) k) := by
  funext k
  show (V1 m ρ c main_call0_v7 : FVec Ideal S1x2048 .f32) (ix2 (0 : Fin 1) k) = _
  rw [V1_b0]
  exact rowRead _ 0 (by omega) _ k

theorem V1_g0 (c : Dev nD) : (V1 m ρ c main_call0_v10 : FVec Ideal S1x2048 .f32)
    = shapeCast S1x2048 (shapeCast S2048 (extractStridedSlice S1x2048 ![0, 0] (m ((c : Thread nD τ).loc main_arg3)) slices_S4x2048_S1x2048_0_0) shapeCasts_S1x2048_S2048) shapeCasts_S2048_S1x2048 := by
  show StableHlo.after hostOps0 (W0 m ρ c) (Proc.devRef .tc main_call0_v10) = _
  after_results
  simp only [ofBuf_toBuf]
  rfl

theorem ofRow_g0 (c : Dev nD) : ofRow (V1 m ρ c main_call0_v10) = fun k => (m ((c : Thread nD τ).loc main_arg3)) (ix2 (0 : Fin 4) k) := by
  funext k
  show (V1 m ρ c main_call0_v10 : FVec Ideal S1x2048 .f32) (ix2 (0 : Fin 1) k) = _
  rw [V1_g0]
  exact rowRead _ 0 (by omega) _ k

theorem V1_s0 (c : Dev nD) : (V1 m ρ c main_call0_v13 : FVec Ideal S1x2048 .f32)
    = shapeCast S1x2048 (shapeCast S2048 (extractStridedSlice S1x2048 ![0, 0] (m ((c : Thread nD τ).loc main_arg4)) slices_S4x2048_S1x2048_0_0) shapeCasts_S1x2048_S2048) shapeCasts_S2048_S1x2048 := by
  show StableHlo.after hostOps0 (W0 m ρ c) (Proc.devRef .tc main_call0_v13) = _
  after_results
  simp only [ofBuf_toBuf]
  rfl

theorem ofRow_s0 (c : Dev nD) : ofRow (V1 m ρ c main_call0_v13) = fun k => (m ((c : Thread nD τ).loc main_arg4)) (ix2 (0 : Fin 4) k) := by
  funext k
  show (V1 m ρ c main_call0_v13 : FVec Ideal S1x2048 .f32) (ix2 (0 : Fin 1) k) = _
  rw [V1_s0]
  exact rowRead _ 0 (by omega) _ k

theorem V1_wt1 (c : Dev nD) : (V1 m ρ c main_call0_v15 : FVec Ideal S2048x2048 .bf16)
    = shapeCast S2048x2048 (extractStridedSlice S1x2048x2048 ![1, 0, 0] (truncf (F := Ideal) .bf16 (transpose S4x2048x2048 [0, 2, 1] (m ((c : Thread nD τ).loc main_arg1)) transposes_S4x2048x2048_S4x2048x2048_0_2_1) bitsLt_bf16_f32) slices_S4x2048x2048_S1x2048x2048_1_0_0) shapeCasts_S1x2048x2048_S2048x2048 := by
  show StableHlo.after hostOps0 (W0 m ρ c) (Proc.devRef .tc main_call0_v15) = _
  after_results
  simp only [ofBuf_toBuf]
  rfl

/-- Layer 1's weight block, read output entry first, is slab 1 of the stacked weights. -/
theorem wOf_1 (c : Dev nD) : wOf (V1 m ρ c main_call0_v15) = fun e d => (m ((c : Thread nD τ).loc main_arg1)) (ix3 (1 : Fin 4) e d) := by
  funext e d
  show (V1 m ρ c main_call0_v15 : FVec Ideal S2048x2048 .bf16) (ix2 d e) = _
  rw [V1_wt1]
  exact slabRead _ 1 (by omega) _ d e

theorem V1_b1 (c : Dev nD) : (V1 m ρ c main_call0_v18 : FVec Ideal S1x2048 .f32)
    = shapeCast S1x2048 (shapeCast S2048 (extractStridedSlice S1x2048 ![1, 0] (m ((c : Thread nD τ).loc main_arg2)) slices_S4x2048_S1x2048_1_0) shapeCasts_S1x2048_S2048) shapeCasts_S2048_S1x2048 := by
  show StableHlo.after hostOps0 (W0 m ρ c) (Proc.devRef .tc main_call0_v18) = _
  after_results
  simp only [ofBuf_toBuf]
  rfl

theorem ofRow_b1 (c : Dev nD) : ofRow (V1 m ρ c main_call0_v18) = fun k => (m ((c : Thread nD τ).loc main_arg2)) (ix2 (1 : Fin 4) k) := by
  funext k
  show (V1 m ρ c main_call0_v18 : FVec Ideal S1x2048 .f32) (ix2 (0 : Fin 1) k) = _
  rw [V1_b1]
  exact rowRead _ 1 (by omega) _ k

theorem V1_g1 (c : Dev nD) : (V1 m ρ c main_call0_v21 : FVec Ideal S1x2048 .f32)
    = shapeCast S1x2048 (shapeCast S2048 (extractStridedSlice S1x2048 ![1, 0] (m ((c : Thread nD τ).loc main_arg3)) slices_S4x2048_S1x2048_1_0) shapeCasts_S1x2048_S2048) shapeCasts_S2048_S1x2048 := by
  show StableHlo.after hostOps0 (W0 m ρ c) (Proc.devRef .tc main_call0_v21) = _
  after_results
  simp only [ofBuf_toBuf]
  rfl

theorem ofRow_g1 (c : Dev nD) : ofRow (V1 m ρ c main_call0_v21) = fun k => (m ((c : Thread nD τ).loc main_arg3)) (ix2 (1 : Fin 4) k) := by
  funext k
  show (V1 m ρ c main_call0_v21 : FVec Ideal S1x2048 .f32) (ix2 (0 : Fin 1) k) = _
  rw [V1_g1]
  exact rowRead _ 1 (by omega) _ k

theorem V1_s1 (c : Dev nD) : (V1 m ρ c main_call0_v24 : FVec Ideal S1x2048 .f32)
    = shapeCast S1x2048 (shapeCast S2048 (extractStridedSlice S1x2048 ![1, 0] (m ((c : Thread nD τ).loc main_arg4)) slices_S4x2048_S1x2048_1_0) shapeCasts_S1x2048_S2048) shapeCasts_S2048_S1x2048 := by
  show StableHlo.after hostOps0 (W0 m ρ c) (Proc.devRef .tc main_call0_v24) = _
  after_results
  simp only [ofBuf_toBuf]
  rfl

theorem ofRow_s1 (c : Dev nD) : ofRow (V1 m ρ c main_call0_v24) = fun k => (m ((c : Thread nD τ).loc main_arg4)) (ix2 (1 : Fin 4) k) := by
  funext k
  show (V1 m ρ c main_call0_v24 : FVec Ideal S1x2048 .f32) (ix2 (0 : Fin 1) k) = _
  rw [V1_s1]
  exact rowRead _ 1 (by omega) _ k

theorem V3_wt2 (c : Dev nD) : (V3 m ρ c main_call0_v27 : FVec Ideal S2048x2048 .bf16)
    = shapeCast S2048x2048 (extractStridedSlice S1x2048x2048 ![2, 0, 0] (truncf (F := Ideal) .bf16 (transpose S4x2048x2048 [0, 2, 1] (m ((c : Thread nD τ).loc main_arg1)) transposes_S4x2048x2048_S4x2048x2048_0_2_1) bitsLt_bf16_f32) slices_S4x2048x2048_S1x2048x2048_2_0_0) shapeCasts_S1x2048x2048_S2048x2048 := by
  show StableHlo.after hostOps1 (W2 m ρ c) (Proc.devRef .tc main_call0_v27) = _
  after_results
  simp only [ofBuf_toBuf, W2_v2 m ρ c]
  rfl

/-- Layer 2's weight block, read output entry first, is slab 2 of the stacked weights. -/
theorem wOf_2 (c : Dev nD) : wOf (V3 m ρ c main_call0_v27) = fun e d => (m ((c : Thread nD τ).loc main_arg1)) (ix3 (2 : Fin 4) e d) := by
  funext e d
  show (V3 m ρ c main_call0_v27 : FVec Ideal S2048x2048 .bf16) (ix2 d e) = _
  rw [V3_wt2]
  exact slabRead _ 2 (by omega) _ d e

theorem V3_b2 (c : Dev nD) : (V3 m ρ c main_call0_v30 : FVec Ideal S1x2048 .f32)
    = shapeCast S1x2048 (shapeCast S2048 (extractStridedSlice S1x2048 ![2, 0] (m ((c : Thread nD τ).loc main_arg2)) slices_S4x2048_S1x2048_2_0) shapeCasts_S1x2048_S2048) shapeCasts_S2048_S1x2048 := by
  show StableHlo.after hostOps1 (W2 m ρ c) (Proc.devRef .tc main_call0_v30) = _
  after_results
  simp only [ofBuf_toBuf, W2_arg2 m ρ c]
  rfl

theorem ofRow_b2 (c : Dev nD) : ofRow (V3 m ρ c main_call0_v30) = fun k => (m ((c : Thread nD τ).loc main_arg2)) (ix2 (2 : Fin 4) k) := by
  funext k
  show (V3 m ρ c main_call0_v30 : FVec Ideal S1x2048 .f32) (ix2 (0 : Fin 1) k) = _
  rw [V3_b2]
  exact rowRead _ 2 (by omega) _ k

theorem V3_g2 (c : Dev nD) : (V3 m ρ c main_call0_v33 : FVec Ideal S1x2048 .f32)
    = shapeCast S1x2048 (shapeCast S2048 (extractStridedSlice S1x2048 ![2, 0] (m ((c : Thread nD τ).loc main_arg3)) slices_S4x2048_S1x2048_2_0) shapeCasts_S1x2048_S2048) shapeCasts_S2048_S1x2048 := by
  show StableHlo.after hostOps1 (W2 m ρ c) (Proc.devRef .tc main_call0_v33) = _
  after_results
  simp only [ofBuf_toBuf, W2_arg3 m ρ c]
  rfl

theorem ofRow_g2 (c : Dev nD) : ofRow (V3 m ρ c main_call0_v33) = fun k => (m ((c : Thread nD τ).loc main_arg3)) (ix2 (2 : Fin 4) k) := by
  funext k
  show (V3 m ρ c main_call0_v33 : FVec Ideal S1x2048 .f32) (ix2 (0 : Fin 1) k) = _
  rw [V3_g2]
  exact rowRead _ 2 (by omega) _ k

theorem V3_s2 (c : Dev nD) : (V3 m ρ c main_call0_v36 : FVec Ideal S1x2048 .f32)
    = shapeCast S1x2048 (shapeCast S2048 (extractStridedSlice S1x2048 ![2, 0] (m ((c : Thread nD τ).loc main_arg4)) slices_S4x2048_S1x2048_2_0) shapeCasts_S1x2048_S2048) shapeCasts_S2048_S1x2048 := by
  show StableHlo.after hostOps1 (W2 m ρ c) (Proc.devRef .tc main_call0_v36) = _
  after_results
  simp only [ofBuf_toBuf, W2_arg4 m ρ c]
  rfl

theorem ofRow_s2 (c : Dev nD) : ofRow (V3 m ρ c main_call0_v36) = fun k => (m ((c : Thread nD τ).loc main_arg4)) (ix2 (2 : Fin 4) k) := by
  funext k
  show (V3 m ρ c main_call0_v36 : FVec Ideal S1x2048 .f32) (ix2 (0 : Fin 1) k) = _
  rw [V3_s2]
  exact rowRead _ 2 (by omega) _ k

theorem V3_wt3 (c : Dev nD) : (V3 m ρ c main_call0_v38 : FVec Ideal S2048x2048 .bf16)
    = shapeCast S2048x2048 (extractStridedSlice S1x2048x2048 ![3, 0, 0] (truncf (F := Ideal) .bf16 (transpose S4x2048x2048 [0, 2, 1] (m ((c : Thread nD τ).loc main_arg1)) transposes_S4x2048x2048_S4x2048x2048_0_2_1) bitsLt_bf16_f32) slices_S4x2048x2048_S1x2048x2048_3_0_0) shapeCasts_S1x2048x2048_S2048x2048 := by
  show StableHlo.after hostOps1 (W2 m ρ c) (Proc.devRef .tc main_call0_v38) = _
  after_results
  simp only [ofBuf_toBuf, W2_v2 m ρ c]
  rfl

/-- Layer 3's weight block, read output entry first, is slab 3 of the stacked weights. -/
theorem wOf_3 (c : Dev nD) : wOf (V3 m ρ c main_call0_v38) = fun e d => (m ((c : Thread nD τ).loc main_arg1)) (ix3 (3 : Fin 4) e d) := by
  funext e d
  show (V3 m ρ c main_call0_v38 : FVec Ideal S2048x2048 .bf16) (ix2 d e) = _
  rw [V3_wt3]
  exact slabRead _ 3 (by omega) _ d e

theorem V3_b3 (c : Dev nD) : (V3 m ρ c main_call0_v41 : FVec Ideal S1x2048 .f32)
    = shapeCast S1x2048 (shapeCast S2048 (extractStridedSlice S1x2048 ![3, 0] (m ((c : Thread nD τ).loc main_arg2)) slices_S4x2048_S1x2048_3_0) shapeCasts_S1x2048_S2048) shapeCasts_S2048_S1x2048 := by
  show StableHlo.after hostOps1 (W2 m ρ c) (Proc.devRef .tc main_call0_v41) = _
  after_results
  simp only [ofBuf_toBuf, W2_arg2 m ρ c]
  rfl

theorem ofRow_b3 (c : Dev nD) : ofRow (V3 m ρ c main_call0_v41) = fun k => (m ((c : Thread nD τ).loc main_arg2)) (ix2 (3 : Fin 4) k) := by
  funext k
  show (V3 m ρ c main_call0_v41 : FVec Ideal S1x2048 .f32) (ix2 (0 : Fin 1) k) = _
  rw [V3_b3]
  exact rowRead _ 3 (by omega) _ k

theorem V3_g3 (c : Dev nD) : (V3 m ρ c main_call0_v44 : FVec Ideal S1x2048 .f32)
    = shapeCast S1x2048 (shapeCast S2048 (extractStridedSlice S1x2048 ![3, 0] (m ((c : Thread nD τ).loc main_arg3)) slices_S4x2048_S1x2048_3_0) shapeCasts_S1x2048_S2048) shapeCasts_S2048_S1x2048 := by
  show StableHlo.after hostOps1 (W2 m ρ c) (Proc.devRef .tc main_call0_v44) = _
  after_results
  simp only [ofBuf_toBuf, W2_arg3 m ρ c]
  rfl

theorem ofRow_g3 (c : Dev nD) : ofRow (V3 m ρ c main_call0_v44) = fun k => (m ((c : Thread nD τ).loc main_arg3)) (ix2 (3 : Fin 4) k) := by
  funext k
  show (V3 m ρ c main_call0_v44 : FVec Ideal S1x2048 .f32) (ix2 (0 : Fin 1) k) = _
  rw [V3_g3]
  exact rowRead _ 3 (by omega) _ k

theorem V3_s3 (c : Dev nD) : (V3 m ρ c main_call0_v47 : FVec Ideal S1x2048 .f32)
    = shapeCast S1x2048 (shapeCast S2048 (extractStridedSlice S1x2048 ![3, 0] (m ((c : Thread nD τ).loc main_arg4)) slices_S4x2048_S1x2048_3_0) shapeCasts_S1x2048_S2048) shapeCasts_S2048_S1x2048 := by
  show StableHlo.after hostOps1 (W2 m ρ c) (Proc.devRef .tc main_call0_v47) = _
  after_results
  simp only [ofBuf_toBuf, W2_arg4 m ρ c]
  rfl

theorem ofRow_s3 (c : Dev nD) : ofRow (V3 m ρ c main_call0_v47) = fun k => (m ((c : Thread nD τ).loc main_arg4)) (ix2 (3 : Fin 4) k) := by
  funext k
  show (V3 m ρ c main_call0_v47 : FVec Ideal S1x2048 .f32) (ix2 (0 : Fin 1) k) = _
  rw [V3_s3]
  exact rowRead _ 3 (by omega) _ k

/-! ## The inputs and the result -/

/-- The first call's input is the program's input with its two leading axes merged. -/
theorem V1_x (c : Dev nD) : (V1 m ρ c main_call0_v0 : FVec Ideal S16384x2048 .f32)
    = shapeCast S16384x2048 (m ((c : Thread nD τ).loc main_arg0)) shapeCasts_S8x2048x2048_S16384x2048 := by
  show StableHlo.after hostOps0 (W0 m ρ c) (Proc.devRef .tc main_call0_v0) = _
  after_results
  simp only [ofBuf_toBuf]
  rfl

theorem rowOf_x (c : Dev nD) (i : Fin 8) (j : Fin 2048) (r : Fin 16384) (hr : r.val = i.val * 2048 + j.val) :
    rowOf (V1 m ρ c main_call0_v0) r = fun d => (m ((c : Thread nD τ).loc main_arg0)) (ix3 i j d) := by
  funext d
  show (V1 m ρ c main_call0_v0 : FVec Ideal S16384x2048 .f32) (ix2 r d) = _
  rw [V1_x]
  exact Cert.RowBlocks.shapeCast_merge_apply _ _ i j d r hr

/-- The second call's input is the first call's result array. -/
theorem V3_y (c : Dev nD) : V3 m ρ c main_call0_v25 = (dat0 (V1 m ρ) c).arrAt 9 cfg0.N := by
  show StableHlo.after hostOps1 (W2 m ρ c) (Proc.devRef .tc main_call0_v25) = _
  after_results
  exact W2_arr m ρ c 9

/-- The program's result is the second call's result array with its leading axis split. -/
theorem W5_out (c : Dev nD) : (W5 m ρ c (Proc.devRef .tc main_v0) : FVec Ideal S8x2048x2048 .f32)
    = shapeCast S8x2048x2048 ((dat1 (V3 m ρ) c).arrAt 9 cfg1.N) shapeCasts_S16384x2048_S8x2048x2048 := by
  show StableHlo.after hostOps2 (W4 m ρ c) (Proc.devRef .tc main_v0) = _
  after_results
  rw [show W4 m ρ c (Proc.devRef .tc main_call0_v48) = (dat1 (V3 m ρ) c).arrAt 9 cfg1.N from W4_arr m ρ c 9]
  rfl

end Cert.Mlp.K

end
-- ==== Proof.KValue.lean ====
/-
  The kernel program's result, index by index.

  Entry `(i, j, e)` of the result is entry `e` of row `i · 2048 + j` of the second call's result array; that row is the
  second call's two layers applied to the same row of the first call's result array, which is the first call's two
  layers applied to row `(i, j)` of the input.  With each layer's parameters read back to the stacked argument arrays
  this is the specification's four layers, in the logistic form of the activation.
-/
import proofs.«144377_j62234076119626_2_alg».proof.Proof.KRegion
import proofs.«144377_j62234076119626_2_alg».proof.Proof.KEntry

set_option maxRecDepth 16384

noncomputable section

namespace Cert.Mlp.K

open Idealize.ShloMosaic Idealize.ShloMosaic.TcCoe Idealize.ShloMosaic.ValueIdx Idealize.SL.Sem
open Cert.Dense Cert.Mlp
open Cert.KernelIdeal Cert.KernelIdeal.Gen

variable (m : (ℓ : Loc nD τ sig) → Buf (Elt Ideal) ℓ) (ρ : Dev nD → PrngReg)

/-- Row `i · 2048 + j` of the first call's result: layers 0 and 1 on row `(i, j)` of the input. -/
theorem row_first (c : Dev nD) (i : Fin 8) (j : Fin 2048) (r : Fin 16384) (hr : r.val = i.val * 2048 + j.val) :
    rowOf (V3 m ρ c main_call0_v25) r
      = rowPair (V1 m ρ c main_call0_v4) (V1 m ρ c main_call0_v7) (V1 m ρ c main_call0_v10) (V1 m ρ c main_call0_v13)
          (V1 m ρ c main_call0_v15) (V1 m ρ c main_call0_v18) (V1 m ρ c main_call0_v21) (V1 m ρ c main_call0_v24)
          (fun d => m ((c : Thread nD τ).loc main_arg0) (ix3 i j d)) := by
  funext k
  show V3 m ρ c main_call0_v25 (ix2 r k) = _
  rw [V3_y, final0, pairM_apply, rowOf_x m ρ c i j r hr]

/-- The kernel program's result buffer holds the specification's network of the argument arrays, the activation in
    its logistic form. -/
theorem kernel_value (c : Dev nD) :
    (W5 m ρ c (Proc.devRef .tc main_v0) : FVec Ideal S8x2048x2048 .f32)
      = result geluK (m ((c : Thread nD τ).loc main_arg0)) (m ((c : Thread nD τ).loc main_arg1))
          (m ((c : Thread nD τ).loc main_arg2)) (m ((c : Thread nD τ).loc main_arg3)) (m ((c : Thread nD τ).loc main_arg4)) := by
  funext idx
  obtain ⟨i, j, e, rfl⟩ : ∃ (i : Fin 8) (j e : Fin 2048), idx = ix3 i j e := ⟨idx 0, idx 1, idx 2, eq_ix3 idx⟩
  have hr : i.val * 2048 + j.val < 16384 := by have := i.isLt; have := j.isLt; omega
  rw [W5_out, Cert.RowBlocks.shapeCast_split_apply _ _ i j e ⟨i.val * 2048 + j.val, hr⟩ rfl, final1, pairM_apply,
    row_first m ρ c i j _ rfl, result_apply]
  unfold rowPair net layer
  rw [wOf_0 m ρ c, wOf_1 m ρ c, wOf_2 m ρ c, wOf_3 m ρ c, ofRow_b0 m ρ c, ofRow_b1 m ρ c, ofRow_b2 m ρ c, ofRow_b3 m ρ c, ofRow_g0 m ρ c, ofRow_g1 m ρ c, ofRow_g2 m ρ c, ofRow_g3 m ρ c, ofRow_s0 m ρ c, ofRow_s1 m ρ c, ofRow_s2 m ρ c, ofRow_s3 m ρ c]

end Cert.Mlp.K

end
-- ==== Proof.RefValue.lean ====
/-
  The reference program's result, read index by index as the network of the specification.

  The reference works on the whole rank-3 input [8, 2048, 2048] at once: four times it normalises along the last
  axis (the sum along the axis over the count, the deviation, the sum of the squared deviations over the count, the
  reciprocal square root of that plus the guard, a gain and a shift laid along the last axis), contracts the last
  axis with the second axis of one slab of the weights, adds one row of the biases, and applies the tanh form of
  the GELU.  Every one of these operations, read at an index (i, j, e), depends on the row (i, j) of its
  operand only, and is the specification's function of that row.  The layout operations, the sum along the last
  axis and the contraction are read at an index in LibHostRank3.lean, at any extents; this file names the
  reference's one layer over variable operands, reads it as the specification's layer, and composes the four
  layers.
-/
import proofs.«144377_j62234076119626_2_alg».proof.Proof.Spec
import proofs.«144377_j62234076119626_2_alg».proof.Proof.Gen.ReferenceIdeal.Run
import proofs.«144377_j62234076119626_2_alg».proof.Proof.LibHostRank3
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.Mlp.Ref

open Idealize.ShloMosaic Idealize.ShloMosaic.ValueIdx Cert.HostRank3

/-! ## The reference's one layer over variable operands -/

section Reference

open Cert.ReferenceIdeal Cert.ReferenceIdeal.Gen Idealize.ShloMosaic.TcCoe Idealize.SL.Sem Idealize.ShloMosaic.StableHlo

theorem hostRsqrt_apply {s : Shape} {φ : FTy} (x : FVec Ideal s φ) (i : s.Idx) : Host.rsqrt x i = Ideal.rsqrt (x i) := rfl

theorem hostTanh_apply {s : Shape} {φ : FTy} (x : FVec Ideal s φ) (i : s.Idx) : Host.tanh x i = Ideal.tanh (x i) := rfl

/-- The row means kept as a last axis of extent one: the sums along the last axis from a zero, over the count. -/
def hMean (X : FVec Ideal S8x2048x2048 .f32) : FVec Ideal S8x2048x1 .f32 :=
  Host.divf (broadcastInDim S8x2048x1 ![0, 1] bcast_S8x2048_S8x2048x1_0_1 (Host.reduceAdd X (constant (F := Ideal) S_ .f32 0x00000000#32) reducesTo_S8x2048x2048_S8x2048_d2 h_S_)) (broadcastInDim S8x2048x1 ![] bcast_S_S8x2048x1 (constant (F := Ideal) S_ .f32 0x45000000#32))

/-- The deviations from the row means. -/
def hCen (X : FVec Ideal S8x2048x2048 .f32) : FVec Ideal S8x2048x2048 .f32 :=
  subf X (broadcastInDim S8x2048x2048 ![0, 1, 2] bcast_S8x2048x1_S8x2048x2048_0_1_2 (hMean X))

/-- The row variances kept as a last axis of extent one. -/
def hVar (X : FVec Ideal S8x2048x2048 .f32) : FVec Ideal S8x2048x1 .f32 :=
  Host.divf (broadcastInDim S8x2048x1 ![0, 1] bcast_S8x2048_S8x2048x1_0_1 (Host.reduceAdd (mulf (hCen X) (hCen X)) (constant (F := Ideal) S_ .f32 0x00000000#32) reducesTo_S8x2048x2048_S8x2048_d2 h_S_)) (broadcastInDim S8x2048x1 ![] bcast_S_S8x2048x1 (constant (F := Ideal) S_ .f32 0x45000000#32))

/-- The normalised rows with the gain g and the shift b laid along the last axis. -/
def hLn (X : FVec Ideal S8x2048x2048 .f32) (g b : FVec Ideal S2048 .f32) : FVec Ideal S8x2048x2048 .f32 :=
  addf (mulf (mulf (hCen X) (broadcastInDim S8x2048x2048 ![0, 1, 2] bcast_S8x2048x1_S8x2048x2048_0_1_2 (Host.rsqrt (addf (hVar X) (broadcastInDim S8x2048x1 ![] bcast_S_S8x2048x1 (constant (F := Ideal) S_ .f32 0x3727C5AC#32)))))) (broadcastInDim S8x2048x2048 ![0, 1, 2] bcast_S1x1x2048_S8x2048x2048_0_1_2 (broadcastInDim S1x1x2048 ![2] bcast_S2048_S1x1x2048_2 g))) (broadcastInDim S8x2048x2048 ![0, 1, 2] bcast_S1x1x2048_S8x2048x2048_0_1_2 (broadcastInDim S1x1x2048 ![2] bcast_S2048_S1x1x2048_2 b))

/-- One layer before its activation: the normalised rows contracted with the weights Wl, plus the bias. -/
def hostPre (X : FVec Ideal S8x2048x2048 .f32) (g b : FVec Ideal S2048 .f32) (Wl : FVec Ideal S2048x2048 .f32)
    (bias : FVec Ideal S2048 .f32) : FVec Ideal S8x2048x2048 .f32 :=
  addf (Host.dotGeneral dot_S8x2048x2048_S2048x2048_S8x2048x2048_2_1_01_0_n_n none (hLn X g b) Wl) (broadcastInDim S8x2048x2048 ![0, 1, 2] bcast_S1x1x2048_S8x2048x2048_0_1_2 (broadcastInDim S1x1x2048 ![2] bcast_S2048_S1x1x2048_2 bias))

/-- The tanh form of the GELU, entry by entry. -/
def hostGelu (Y : FVec Ideal S8x2048x2048 .f32) : FVec Ideal S8x2048x2048 .f32 :=
  mulf (mulf (broadcastInDim S8x2048x2048 ![] bcast_S_S8x2048x2048 (constant (F := Ideal) S_ .f32 0x3F000000#32)) Y) (addf (broadcastInDim S8x2048x2048 ![] bcast_S_S8x2048x2048 (constant (F := Ideal) S_ .f32 0x3F800000#32)) (Host.tanh (mulf (broadcastInDim S8x2048x2048 ![] bcast_S_S8x2048x2048 (constant (F := Ideal) S_ .f32 0x3F4C422A#32)) (addf Y (mulf (mulf (mulf (broadcastInDim S8x2048x2048 ![] bcast_S_S8x2048x2048 (constant (F := Ideal) S_ .f32 0x3D372713#32)) Y) Y) Y)))))

/-- Row l of a stacked parameter array as a vector. -/
def vecRow (P : FVec Ideal S4x2048 .f32) (l : ℕ) (h : S4x2048.Slices ![l, 0] S1x2048) : FVec Ideal S2048 .f32 :=
  shapeCast _ (extractStridedSlice S1x2048 ![l, 0] P h) shapeCasts_S1x2048_S2048

/-- Slab l of the stacked weights as a matrix. -/
def slab (W : FVec Ideal S4x2048x2048 .f32) (l : ℕ) (h : S4x2048x2048.Slices ![l, 0, 0] S1x2048x2048) :
    FVec Ideal S2048x2048 .f32 :=
  shapeCast _ (extractStridedSlice S1x2048x2048 ![l, 0, 0] W h) shapeCasts_S1x2048x2048_S2048x2048

/-- Layer l of the reference on the whole array. -/
def hostLayer (X : FVec Ideal S8x2048x2048 .f32) (W : FVec Ideal S4x2048x2048 .f32) (bb lw lb : FVec Ideal S4x2048 .f32)
    (l : ℕ) (h2 : S4x2048.Slices ![l, 0] S1x2048) (h3 : S4x2048x2048.Slices ![l, 0, 0] S1x2048x2048) :
    FVec Ideal S8x2048x2048 .f32 :=
  hostGelu (hostPre X (vecRow lw l h2) (vecRow lb l h2) (slab W l h3) (vecRow bb l h2))

/-! ## Each piece at an index is the specification's function of one row -/

theorem hMean_apply (X : FVec Ideal S8x2048x2048 .f32) (i : Fin 8) (j : Fin 2048) (u : Fin 1) :
    hMean X (ix3 i j u) = Cert.Mlp.rMean (fun d => X (ix3 i j d)) := by
  unfold hMean
  rw [hostDivf_apply, bcast_mat_col, broadcastInDim_scalar_apply, hostRowSum3 X _ _ (by decide) _ i j]
  show Ideal.div (Ideal.ofBits .f32 0x00000000#32 + _) (Ideal.ofBits .f32 0x45000000#32) = _
  rw [Ideal.ofBits_zero_f32, zero_add]
  rfl

theorem hCen_apply (X : FVec Ideal S8x2048x2048 .f32) (i : Fin 8) (j d : Fin 2048) :
    hCen X (ix3 i j d) = Cert.Mlp.rCen (fun d => X (ix3 i j d)) d := by
  unfold hCen
  rw [subf_apply, bcast_col_full, hMean_apply]
  rfl

theorem hVar_apply (X : FVec Ideal S8x2048x2048 .f32) (i : Fin 8) (j : Fin 2048) (u : Fin 1) :
    hVar X (ix3 i j u) = Cert.Mlp.rVar (fun d => X (ix3 i j d)) := by
  unfold hVar
  rw [hostDivf_apply, bcast_mat_col, broadcastInDim_scalar_apply, hostRowSum3 _ _ _ (by decide) _ i j]
  simp only [mulf_apply, hCen_apply]
  show Ideal.div (Ideal.ofBits .f32 0x00000000#32 + _) (Ideal.ofBits .f32 0x45000000#32) = _
  rw [Ideal.ofBits_zero_f32, zero_add]
  rfl

theorem hLn_apply (X : FVec Ideal S8x2048x2048 .f32) (g b : FVec Ideal S2048 .f32) (i : Fin 8) (j d : Fin 2048) :
    hLn X g b (ix3 i j d)
      = Cert.Mlp.rLn (fun d => X (ix3 i j d)) (fun k => g (ix1 k)) (fun k => b (ix1 k)) d := by
  unfold hLn
  rw [addf_apply, mulf_apply, mulf_apply, hCen_apply, bcast_col_full, bcast_vec_full, bcast_vec_full,
    hostRsqrt_apply, addf_apply, hVar_apply, broadcastInDim_scalar_apply]
  rfl

theorem hostPre_apply (X : FVec Ideal S8x2048x2048 .f32) (g b : FVec Ideal S2048 .f32) (Wl : FVec Ideal S2048x2048 .f32)
    (bias : FVec Ideal S2048 .f32) (i : Fin 8) (j e : Fin 2048) :
    hostPre X g b Wl bias (ix3 i j e)
      = Cert.Mlp.rPre (fun d => X (ix3 i j d)) (fun k => g (ix1 k)) (fun k => b (ix1 k)) (fun e d => Wl (ix2 e d))
          (fun e => bias (ix1 e)) e := by
  unfold hostPre
  rw [addf_apply, bcast_vec_full, hostDot3 _ rfl rfl rfl rfl rfl rfl]
  simp only [hLn_apply]
  rfl

theorem hostGelu_apply (Y : FVec Ideal S8x2048x2048 .f32) (idx : S8x2048x2048.Idx) :
    hostGelu Y idx = Cert.Mlp.geluR (Y idx) := by
  unfold hostGelu
  simp only [mulf_apply, addf_apply, hostTanh_apply, broadcastInDim_scalar_apply]
  rfl

theorem vecRow_apply (P : FVec Ideal S4x2048 .f32) (l : ℕ) (hl : l < 4) (h : S4x2048.Slices ![l, 0] S1x2048) (k : Fin 2048) :
    vecRow P l h (ix1 k) = P (ix2 (⟨l, hl⟩ : Fin 4) k) := by
  unfold vecRow
  rw [shapeCast_1a_a_apply, slice_row_apply l hl]

theorem slab_apply (W : FVec Ideal S4x2048x2048 .f32) (l : ℕ) (hl : l < 4)
    (h : S4x2048x2048.Slices ![l, 0, 0] S1x2048x2048) (e d : Fin 2048) :
    slab W l h (ix2 e d) = W (ix3 (⟨l, hl⟩ : Fin 4) e d) := by
  unfold slab
  rw [shapeCast_1ab_ab_apply, slice_slab_apply l hl]

/-- Layer l of the reference at (i, j, e) is the specification's layer l on row (i, j), at e. -/
theorem hostLayer_apply (X : FVec Ideal S8x2048x2048 .f32) (W : FVec Ideal S4x2048x2048 .f32)
    (bb lw lb : FVec Ideal S4x2048 .f32) (l : ℕ) (hl : l < 4) (h2 : S4x2048.Slices ![l, 0] S1x2048)
    (h3 : S4x2048x2048.Slices ![l, 0, 0] S1x2048x2048) (i : Fin 8) (j e : Fin 2048) :
    hostLayer X W bb lw lb l h2 h3 (ix3 i j e)
      = Cert.Mlp.layer Cert.Mlp.geluR W bb lw lb ⟨l, hl⟩ (fun d => X (ix3 i j d)) e := by
  unfold hostLayer
  rw [hostGelu_apply, hostPre_apply]
  simp only [vecRow_apply _ l hl, slab_apply _ l hl]
  rfl

/-! ## The four layers composed -/

section Stages

variable (V0 : Valuation τ sig (Elt Ideal))

/-- The arguments' launch contents: the input, the stacked weights, biases, gains and shifts. -/
abbrev argX : FVec Ideal S8x2048x2048 .f32 := V0 (Proc.devRef .tc main_arg0)
abbrev argW : FVec Ideal S4x2048x2048 .f32 := V0 (Proc.devRef .tc main_arg1)
abbrev argB : FVec Ideal S4x2048 .f32 := V0 (Proc.devRef .tc main_arg2)
abbrev argG : FVec Ideal S4x2048 .f32 := V0 (Proc.devRef .tc main_arg3)
abbrev argS : FVec Ideal S4x2048 .f32 := V0 (Proc.devRef .tc main_arg4)

/-! The generated composed terms are these layers, one on another. -/

theorem v48_eq : Value.res_main_v48 V0 = hostLayer (argX V0) (argW V0) (argB V0) (argG V0) (argS V0) 0
    slices_S4x2048_S1x2048_0_0 slices_S4x2048x2048_S1x2048x2048_0_0_0 := rfl

theorem v97_eq : Value.res_main_v97 V0 = hostLayer (Value.res_main_v48 V0) (argW V0) (argB V0) (argG V0) (argS V0) 1
    slices_S4x2048_S1x2048_1_0 slices_S4x2048x2048_S1x2048x2048_1_0_0 := rfl

theorem v146_eq : Value.res_main_v146 V0 = hostLayer (Value.res_main_v97 V0) (argW V0) (argB V0) (argG V0) (argS V0) 2
    slices_S4x2048_S1x2048_2_0 slices_S4x2048x2048_S1x2048x2048_2_0_0 := rfl

theorem v195_eq :
    mulf (mulf (broadcastInDim S8x2048x2048 ![] bcast_S_S8x2048x2048 (constant S_ .f32 0x3F000000#32)) (Value.res_main_v182 V0)) (addf (broadcastInDim S8x2048x2048 ![] bcast_S_S8x2048x2048 (constant S_ .f32 0x3F800000#32)) (Host.tanh (mulf (broadcastInDim S8x2048x2048 ![] bcast_S_S8x2048x2048 (constant S_ .f32 0x3F4C422A#32)) (addf (Value.res_main_v182 V0) (mulf (mulf (mulf (broadcastInDim S8x2048x2048 ![] bcast_S_S8x2048x2048 (constant S_ .f32 0x3D372713#32)) (Value.res_main_v182 V0)) (Value.res_main_v182 V0)) (Value.res_main_v182 V0))))))
      = hostLayer (Value.res_main_v146 V0) (argW V0) (argB V0) (argG V0) (argS V0) 3
          slices_S4x2048_S1x2048_3_0 slices_S4x2048x2048_S1x2048x2048_3_0_0 := rfl

/-! Row (i, j) of each of them is the specification's layers on row (i, j) of the input. -/

theorem row48 (i : Fin 8) (j : Fin 2048) :
    (fun d => Value.res_main_v48 V0 (ix3 i j d))
      = Cert.Mlp.layer Cert.Mlp.geluR (argW V0) (argB V0) (argG V0) (argS V0) 0 (fun d => argX V0 (ix3 i j d)) := by
  funext d
  rw [v48_eq, hostLayer_apply _ _ _ _ _ 0 (by decide)]
  rfl

theorem row97 (i : Fin 8) (j : Fin 2048) :
    (fun d => Value.res_main_v97 V0 (ix3 i j d))
      = Cert.Mlp.layer Cert.Mlp.geluR (argW V0) (argB V0) (argG V0) (argS V0) 1
          (Cert.Mlp.layer Cert.Mlp.geluR (argW V0) (argB V0) (argG V0) (argS V0) 0 (fun d => argX V0 (ix3 i j d))) := by
  funext d
  rw [v97_eq, hostLayer_apply _ _ _ _ _ 1 (by decide), row48]
  rfl

theorem row146 (i : Fin 8) (j : Fin 2048) :
    (fun d => Value.res_main_v146 V0 (ix3 i j d))
      = Cert.Mlp.layer Cert.Mlp.geluR (argW V0) (argB V0) (argG V0) (argS V0) 2
          (Cert.Mlp.layer Cert.Mlp.geluR (argW V0) (argB V0) (argG V0) (argS V0) 1
            (Cert.Mlp.layer Cert.Mlp.geluR (argW V0) (argB V0) (argG V0) (argS V0) 0 (fun d => argX V0 (ix3 i j d)))) := by
  funext d
  rw [v146_eq, hostLayer_apply _ _ _ _ _ 2 (by decide), row97]
  rfl

end Stages

/-- The reference's result buffer, as the generated run states it over any launch contents, is the specification's
    result with the tanh form of the activation. -/
theorem ref_value (V0 : Valuation τ sig (Elt Ideal)) :
    mulf (mulf (broadcastInDim S8x2048x2048 ![] bcast_S_S8x2048x2048 (constant S_ .f32 0x3F000000#32)) (Value.res_main_v182 V0)) (addf (broadcastInDim S8x2048x2048 ![] bcast_S_S8x2048x2048 (constant S_ .f32 0x3F800000#32)) (Host.tanh (mulf (broadcastInDim S8x2048x2048 ![] bcast_S_S8x2048x2048 (constant S_ .f32 0x3F4C422A#32)) (addf (Value.res_main_v182 V0) (mulf (mulf (mulf (broadcastInDim S8x2048x2048 ![] bcast_S_S8x2048x2048 (constant S_ .f32 0x3D372713#32)) (Value.res_main_v182 V0)) (Value.res_main_v182 V0)) (Value.res_main_v182 V0))))))
      = Cert.Mlp.result Cert.Mlp.geluR (V0 (Proc.devRef .tc main_arg0)) (V0 (Proc.devRef .tc main_arg1))
          (V0 (Proc.devRef .tc main_arg2)) (V0 (Proc.devRef .tc main_arg3)) (V0 (Proc.devRef .tc main_arg4)) := by
  funext idx
  obtain ⟨i, j, e, rfl⟩ : ∃ (i : Fin 8) (j e : Fin 2048), idx = ix3 i j e := ⟨idx 0, idx 1, idx 2, eq_ix3 idx⟩
  rw [Cert.Mlp.result_apply]
  refine (congrFun (v195_eq V0) (ix3 i j e)).trans ?_
  rw [hostLayer_apply _ _ _ _ _ 3 (by decide), row146]
  rfl

end Reference

end Cert.Mlp.Ref

end
-- ==== Proof.lean ====
/-
  The certificate of a four-layer network — each layer a row normalisation, a dense product with a bias, and the tanh
  form of the GELU — computed by two fused calls of two layers each, against its plain array reference.

  The three programs run, and the arguments end unchanged: the kernel programs by their generated frames, the reference
  by its generated run.  The idealization rewrote nothing, so `preserves` asks for nothing.  At the ideal instance both
  programs end with the same result: the kernel program's result buffer is the specification's network of the argument
  arrays with the activation written through the logistic function (KValue, over the run of KRun), the reference's is
  the same network with the activation written through the hyperbolic tangent (RefValue), and the two activations are
  one function of every extended real (Gelu), so no finiteness of the inputs is used.
-/
import proofs.«144377_j62234076119626_2_alg».proof.Defs
import proofs.«144377_j62234076119626_2_alg».proof.Proof.Gen.Kernel
import proofs.«144377_j62234076119626_2_alg».proof.Proof.Gen.Kernel.Frame
import proofs.«144377_j62234076119626_2_alg».proof.Proof.Gen.KernelIdeal
import proofs.«144377_j62234076119626_2_alg».proof.Proof.Gen.KernelIdeal.Frame
import proofs.«144377_j62234076119626_2_alg».proof.Proof.Gen.ReferenceIdeal
import proofs.«144377_j62234076119626_2_alg».proof.Proof.Gen.ReferenceIdeal.Run
import proofs.«144377_j62234076119626_2_alg».proof.Proof.Gen.Pre_finite_inputs
import proofs.«144377_j62234076119626_2_alg».proof.Proof.Gelu
import proofs.«144377_j62234076119626_2_alg».proof.Proof.KRun
import proofs.«144377_j62234076119626_2_alg».proof.Proof.KValue
import proofs.«144377_j62234076119626_2_alg».proof.Proof.RefValue
import Idealize.ShloMosaic.Adequacy
import Idealize.ShloMosaic.Init

noncomputable section

namespace Cert.Proof

open Idealize.ShloMosaic Idealize.ShloMosaic.TcCoe Idealize.SL.Sem

/-- The two forms of the activation give one network. -/
theorem result_logistic_eq_tanh : Cert.Mlp.result Cert.Mlp.geluK = Cert.Mlp.result Cert.Mlp.geluR := by
  rw [show Cert.Mlp.geluK = Cert.Mlp.geluR from funext Cert.Mlp.geluK_eq_geluR]

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both programs end with the specification's network of the arguments in their result buffers. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Mlp.result Cert.Mlp.geluR
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ⟨(h c).1.trans ?_, (h c).2⟩)
      (Cert.Mlp.K.run_value (F := Ideal) m ρ)
    exact (Cert.Mlp.K.kernel_value m ρ c).trans (by rw [result_logistic_eq_tanh])
  · refine (θ_run Cert.ReferenceIdeal.defs _ _).mono (fun _ h c => ⟨(h c).1.trans ?_, (h c).2⟩)
      (Cert.ReferenceIdeal.Value.run (F := Ideal) m' ρ')
    refine (Cert.Mlp.Ref.ref_value _).trans ?_
    show Cert.Mlp.result Cert.Mlp.geluR
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) = _
    rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
